-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x32x32 : Shape := ⟨5, ![8, 128, 128, 32, 32]⟩
abbrev S8x128x128x32 : Shape := ⟨4, ![8, 128, 128, 32]⟩
abbrev S_ : Shape := ⟨0, ![]⟩

class Facts : Prop where
  bcast_S_S8x128x128x32x32 : S_.BroadcastsInDim S8x128x128x32x32 (![] : Fin 0 → Fin S8x128x128x32x32.rank)
  reducesTo_S8x128x128x32x32_S_d0_1_2_3_4 : S8x128x128x32x32.ReducesTo [0, 1, 2, 3, 4] S_
  h_S_ : 0 < S_.numel
  bcast_S_S8x128x128x32 : S_.BroadcastsInDim S8x128x128x32 (![] : Fin 0 → Fin S8x128x128x32.rank)
  reducesTo_S8x128x128x32_S_d0_1_2_3 : S8x128x128x32.ReducesTo [0, 1, 2, 3] S_

variable [Facts]

def fn {F : FTy → Type} [FloatOps F] (main_arg0 : FVec F S8x128x128x32x32 .f32) (main_arg1 : IVec S8x128x128x32 32) : IVec S_ 1 :=
  let main_v0 : FVec F S8x128x128x32x32 .f32 := Host.absf main_arg0
  let main_cst : FVec F S_ .f32 := constant S_ .f32 0x7F800000#32
  let main_v1 : FVec F S8x128x128x32x32 .f32 := broadcastInDim S8x128x128x32x32 ![] bcast_S_S8x128x128x32x32 main_cst
  let main_v2 : IVec S8x128x128x32x32 1 := cmpf .olt main_v0 main_v1
  let main_c : IVec S_ 1 := constantI S_ 1 1#1
  let main_v3 : IVec S_ 1 := (fun x v => Host.reduce IntOp.andi x v reducesTo_S8x128x128x32x32_S_d0_1_2_3_4 h_S_) main_v2 main_c
  let main_c_0 : IVec S_ 32 := constantI S_ 32 0#32
  let main_v4 : IVec S8x128x128x32 32 := broadcastInDim S8x128x128x32 ![] bcast_S_S8x128x128x32 main_c_0
  let main_v5 : IVec S8x128x128x32 1 := cmpi .eq main_arg1 main_v4
  let main_c_1 : IVec S_ 32 := constantI S_ 32 1#32
  let main_v6 : IVec S8x128x128x32 32 := broadcastInDim S8x128x128x32 ![] bcast_S_S8x128x128x32 main_c_1
  let main_v7 : IVec S8x128x128x32 1 := cmpi .eq main_arg1 main_v6
  let main_v8 : IVec S8x128x128x32 1 := ori main_v5 main_v7
  let main_c_2 : IVec S_ 1 := constantI S_ 1 1#1
  let main_v9 : IVec S_ 1 := (fun x v => Host.reduce IntOp.andi x v reducesTo_S8x128x128x32_S_d0_1_2_3 h_S_) main_v8 main_c_2
  let main_v10 : IVec S_ 1 := andi main_v3 main_v9
  main_v10
-- ==== Kernel.lean ====
abbrev S8x128x128x32x32 : Shape := ⟨5, ![8, 128, 128, 32, 32]⟩
abbrev S8x128x128x32 : Shape := ⟨4, ![8, 128, 128, 32]⟩
abbrev S32x32 : Shape := ⟨2, ![32, 32]⟩
abbrev S_ : Shape := ⟨0, ![]⟩
abbrev S1x1 : Shape := ⟨2, ![1, 1]⟩
abbrev S1x128x8x32x32 : Shape := ⟨5, ![1, 128, 8, 32, 32]⟩
abbrev S1x128x8x32 : Shape := ⟨4, ![1, 128, 8, 32]⟩
abbrev S128x8x32x32 : Shape := ⟨4, ![128, 8, 32, 32]⟩
abbrev S128x8x32 : Shape := ⟨3, ![128, 8, 32]⟩
abbrev S1x1x32x32 : Shape := ⟨4, ![1, 1, 32, 32]⟩
abbrev S128x8 : Shape := ⟨2, ![128, 8]⟩
abbrev S128x8x1 : Shape := ⟨3, ![128, 8, 1]⟩
abbrev S128 : Shape := ⟨1, ![128]⟩
abbrev S1x128 : Shape := ⟨2, ![1, 128]⟩
abbrev S1 : Shape := ⟨1, ![1]⟩

abbrev nBuf : Space → Nat
  | .hbm => 23
  | .vmem => 8
  | .smem => 0
  | _ => 0

abbrev bufTy : (tb : Table) → Fin (tcTables nBuf tb) → BufTy
  | .hbm, ⟨0, _⟩ => ⟨S8x128x128x32x32, .f32⟩
  | .hbm, ⟨1, _⟩ => ⟨S8x128x128x32, .i32⟩
  | .hbm, ⟨2, _⟩ => ⟨S32x32, .i32⟩
  | .hbm, ⟨3, _⟩ => ⟨S32x32, .i32⟩
  | .hbm, ⟨4, _⟩ => ⟨S_, .i32⟩
  | .hbm, ⟨5, _⟩ => ⟨S32x32, .i32⟩
  | .hbm, ⟨6, _⟩ => ⟨S32x32, .i32⟩
  | .hbm, ⟨7, _⟩ => ⟨S32x32, .i1⟩
  | .hbm, ⟨8, _⟩ => ⟨S32x32, .f32⟩
  | .hbm, ⟨9, _⟩ => ⟨S1x1, .f32⟩
  | .hbm, ⟨10, _⟩ => ⟨S1x1, .f32⟩
  | .hbm, ⟨11, _⟩ => ⟨S1x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x128x8x32x32, .f32⟩
  | .local _ .vmem, ⟨1, _⟩ => ⟨S1x128x8x32x32, .f32⟩
  | .local _ .vmem, ⟨2, _⟩ => ⟨S1x128x8x32, .i32⟩
  | .local _ .vmem, ⟨3, _⟩ => ⟨S1x128x8x32, .i32⟩
  | .local _ .vmem, ⟨4, _⟩ => ⟨S32x32, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S8x128x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x8x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  bcast_S_S32x32 : S_.BroadcastsInDim S32x32 (![] : Fin 0 → Fin S32x32.rank)
  inb_S1x1_S1x1_0_0 : ∀ a, (![0, 0] : Fin 2 → Nat) a + S1x1.size a ≤ S1x1.size a
  h_S1x1 : 0 < S1x1.numel
  inb_S1x128x8x32x32_S1x128x8x32x32_0_0_0_0_0 : ∀ a, (![0, 0, 0, 0, 0] : Fin 5 → Nat) a + S1x128x8x32x32.size a ≤ S1x128x8x32x32.size a
  h_S1x128x8x32x32 : 0 < S1x128x8x32x32.numel
  shapeCasts_S1x128x8x32x32_S128x8x32x32 : S1x128x8x32x32.ShapeCasts S128x8x32x32
  inb_S1x128x8x32_S1x128x8x32_0_0_0_0 : ∀ a, (![0, 0, 0, 0] : Fin 4 → Nat) a + S1x128x8x32.size a ≤ S1x128x8x32.size a
  h_S1x128x8x32 : 0 < S1x128x8x32.numel
  shapeCasts_S1x128x8x32_S128x8x32 : S1x128x8x32.ShapeCasts S128x8x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S32x32_S1x1x32x32 : S32x32.ShapeCasts S1x1x32x32
  broadcasts_S1x1x32x32_S128x8x32x32 : S1x1x32x32.Broadcasts S128x8x32x32
  reduces_S128x8x32x32_S128x8x32 : S128x8x32x32.Reduces [3] S128x8x32
  iota_S128x8_d0_w32 : S128x8.Iotas .tc 32 [0]
  iota_S128x8_d1_w32 : S128x8.Iotas .tc 32 [1]
  shapeCasts_S128x8_S128x8x1 : S128x8.ShapeCasts S128x8x1
  broadcasts_S128x8x1_S128x8x32 : S128x8x1.Broadcasts S128x8x32
  reduces_S128x8x32_S128x8 : S128x8x32.Reduces [2] S128x8
  reduces_S128x8_S128 : S128x8.Reduces [1] S128
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  shapeCasts_S128x8x1_S128x8 : S128x8x1.ShapeCasts S128x8
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x8x32x32.size a ≤ S8x128x128x32x32.size a
  hwx0_0 : ∀ i : grid0.Coords, EltTy.bits .f32 = 32 ∨ (Rect.block (s := S8x128x128x32x32) S1x128x8x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x8x32.size a ≤ S8x128x128x32.size a
  hwx0_1 : ∀ i : grid0.Coords, EltTy.bits .i32 = 32 ∨ (Rect.block (s := S8x128x128x32) S1x128x8x32.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_arg0) S1x128x8x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x8x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x128x128x32x32 : Shape := ⟨5, ![8, 128, 128, 32, 32]⟩
abbrev S8x128x128x32 : Shape := ⟨4, ![8, 128, 128, 32]⟩
abbrev S32x32 : Shape := ⟨2, ![32, 32]⟩
abbrev S_ : Shape := ⟨0, ![]⟩
abbrev S128x128 : Shape := ⟨2, ![128, 128]⟩
abbrev S1x128x128x1 : Shape := ⟨4, ![1, 128, 128, 1]⟩
abbrev S8x128x128 : Shape := ⟨3, ![8, 128, 128]⟩
abbrev S8x128x128x1 : Shape := ⟨4, ![8, 128, 128, 1]⟩

abbrev nBuf : Space → Nat
  | .hbm => 70
  | .vmem => 0
  | .smem => 0
  | _ => 0

abbrev bufTy : (tb : Table) → Fin (tcTables nBuf tb) → BufTy
  | .hbm, ⟨0, _⟩ => ⟨S8x128x128x32x32, .f32⟩
  | .hbm, ⟨1, _⟩ => ⟨S8x128x128x32, .i32⟩
  | .hbm, ⟨2, _⟩ => ⟨S8x128x128x32, .f32⟩
  | .hbm, ⟨3, _⟩ => ⟨S32x32, .i32⟩
  | .hbm, ⟨4, _⟩ => ⟨S32x32, .i32⟩
  | .hbm, ⟨5, _⟩ => ⟨S32x32, .i1⟩
  | .hbm, ⟨6, _⟩ => ⟨S8x128x128x32x32, .i1⟩
  | .hbm, ⟨7, _⟩ => ⟨S_, .f32⟩
  | .hbm, ⟨8, _⟩ => ⟨S8x128x128x32x32, .f32⟩
  | .hbm, ⟨9, _⟩ => ⟨S8x128x128x32x32, .f32⟩
  | .hbm, ⟨10, _⟩ => ⟨S_, .f32⟩
  | .hbm, ⟨11, _⟩ => ⟨S8x128x128x32, .f32⟩
  | .hbm, ⟨12, _⟩ => ⟨S8x128x128x32, .f32⟩
  | .hbm, ⟨13, _⟩ => ⟨S_, .f32⟩
  | .hbm, ⟨14, _⟩ => ⟨S8x128x128x32, .f32⟩
  | .hbm, ⟨15, _⟩ => ⟨S8x128x128x32, .f32⟩
  | .hbm, ⟨16, _⟩ => ⟨S_, .f32⟩
  | .hbm, ⟨17, _⟩ => ⟨S8x128x128x32, .f32⟩
  | .hbm, ⟨18, _⟩ => ⟨S8x128x128x32, .f32⟩
  | .hbm, ⟨19, _⟩ => ⟨S8x128x128x32, .f32⟩
  | .hbm, ⟨20, _⟩ => ⟨S8x128x128x32, .f32⟩
  | .hbm, ⟨21, _⟩ => ⟨S8x128x128x32, .f32⟩
  | .hbm, ⟨22, _⟩ => ⟨S8x128x128x32, .f32⟩
  | .hbm, ⟨23, _⟩ => ⟨S128x128, .i32⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S1x128x128x1, .f32⟩
  | .hbm, ⟨34, _⟩ => ⟨S8x128x128x32, .f32⟩
  | .hbm, ⟨35, _⟩ => ⟨S8x128x128x32, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8x128x128x32, .f32⟩
  | .hbm, ⟨44, _⟩ => ⟨S8x128x128x32, .i1⟩
  | .hbm, ⟨45, _⟩ => ⟨S_, .f32⟩
  | .hbm, ⟨46, _⟩ => ⟨S8x128x128x32, .f32⟩
  | .hbm, ⟨47, _⟩ => ⟨S8x128x128x32, .i1⟩
  | .hbm, ⟨48, _⟩ => ⟨S8x128x128x32, .i1⟩
  | .hbm, ⟨49, _⟩ => ⟨S8x128x128x32, .i1⟩
  | .hbm, ⟨50, _⟩ => ⟨S_, .f32⟩
  | .hbm, ⟨51, _⟩ => ⟨S1x128x128x1, .f32⟩
  | .hbm, ⟨52, _⟩ => ⟨S1x128x128x1, .i1⟩
  | .hbm, ⟨53, _⟩ => ⟨S8x128x128x32, .i1⟩
  | .hbm, ⟨54, _⟩ => ⟨S8x128x128x32, .i1⟩
  | .hbm, ⟨55, _⟩ => ⟨S8x128x128x32, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .i1⟩
  | .hbm, ⟨61, _⟩ => ⟨S8x128x128, .i1⟩
  | .hbm, ⟨62, _⟩ => ⟨S8x128x128x1, .i1⟩
  | .hbm, ⟨63, _⟩ => ⟨S8x128x128x1, .i1⟩
  | .hbm, ⟨64, _⟩ => ⟨S8x128x128x1, .i1⟩
  | .hbm, ⟨65, _⟩ => ⟨S8x128x128x1, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S8x128x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_cst_11 : Ref sig .tc := ⟨.hbm, 58, rfl⟩
abbrev main_v43 : Ref sig .tc := ⟨.hbm, 59, rfl⟩
abbrev main_c_12 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_cst_14 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  bcast_S32x32_S8x128x128x32x32_3_4 : S32x32.BroadcastsInDim S8x128x128x32x32 (![3, 4] : Fin 2 → Fin S8x128x128x32x32.rank)
  bcast_S_S8x128x128x32x32 : S_.BroadcastsInDim S8x128x128x32x32 (![] : Fin 0 → Fin S8x128x128x32x32.rank)
  reducesTo_S8x128x128x32x32_S8x128x128x32_d3 : S8x128x128x32x32.ReducesTo [3] S8x128x128x32
  h_S_ : 0 < S_.numel
  bcast_S_S8x128x128x32 : S_.BroadcastsInDim S8x128x128x32 (![] : Fin 0 → Fin S8x128x128x32.rank)
  bcast_S_S128x128 : S_.BroadcastsInDim S128x128 (![] : Fin 0 → Fin S128x128.rank)
  bcast_S128x128_S1x128x128x1_1_2 : S128x128.BroadcastsInDim S1x128x128x1 (![1, 2] : Fin 2 → Fin S1x128x128x1.rank)
  bcast_S1x128x128x1_S8x128x128x32_0_1_2_3 : S1x128x128x1.BroadcastsInDim S8x128x128x32 (![0, 1, 2, 3] : Fin 4 → Fin S8x128x128x32.rank)
  reducesTo_S8x128x128x32_S_d0_1_2_3 : S8x128x128x32.ReducesTo [0, 1, 2, 3] S_
  reducesTo_S8x128x128x32x32_S8x128x128x32_d4 : S8x128x128x32x32.ReducesTo [4] S8x128x128x32
  bcast_S_S1x128x128x1 : S_.BroadcastsInDim S1x128x128x1 (![] : Fin 0 → Fin S1x128x128x1.rank)
  reducesTo_S8x128x128x32_S8x128x128_d3 : S8x128x128x32.ReducesTo [3] S8x128x128
  bcast_S8x128x128_S8x128x128x1_0_1_2 : S8x128x128.BroadcastsInDim S8x128x128x1 (![0, 1, 2] : Fin 3 → Fin S8x128x128x1.rank)
  bcast_S1x128x128x1_S8x128x128x1_0_1_2_3 : S1x128x128x1.BroadcastsInDim S8x128x128x1 (![0, 1, 2, 3] : Fin 4 → Fin S8x128x128x1.rank)
  reducesTo_S8x128x128x1_S_d0_1_2_3 : S8x128x128x1.ReducesTo [0, 1, 2, 3] S_

variable [Facts₀]

class Facts : Prop extends Facts₀ where

variable [Facts]
-- ==== Proof.Terms.lean ====
/-
  The per-entry terms of the three totals.

  For a batch entry b, a pair (i, j) and a label k write
    p    = X[b,i,j,k,k]            the diagonal probability,
    rmax = max over l of X[b,i,j,k,l]  the row maximum,
    g    = T[b,i,j,k] read as a number    the label,
    off  = 1 when i ≠ j, else 0       the pair mask.
  The first program accumulates
    loss   : (0 − (g·log p + (1 − g)·log(1 − p))) · off
    single : (g·[p = rmax] + (1 − g)·(1 − [p = rmax])) · off
    multi  : (min over k of the single term without its mask) · off          (per pair),
  the second
    loss   : (−log(p^g · (1 − p)^(1 − g))) · (1 − [i = j])
    single : the bit (if g = 1 then [p = rmax] else ¬[p = rmax]) ∧ (1 − [i = j] > 0), as a number
    multi  : the bit (for all k, that bit without its mask) ∧ (1 − [i = j] > 0), as a number   (per pair).
  For a label that is 0 or 1 and a real p the two arrangements agree entry by entry
  (g = 1: both losses are −log p, both correctness terms are [p = rmax]; g = 0: −log(1 − p) and 1 − [p = rmax]).
-/
import Idealize.ShloMosaic.PureOps.Ideal
import Idealize.ShloMosaic.PureOps.Ideal.Laws
import Idealize.ShloMosaic.Lib.ValueIdx

noncomputable section

namespace Fsmre

open Idealize.ShloMosaic Idealize.ShloMosaic.ValueIdx

/-- The shape of the probabilities X and of the labels T, and of the pairs. -/
abbrev SX : Shape := ⟨5, ![8, 128, 128, 32, 32]⟩
abbrev ST : Shape := ⟨4, ![8, 128, 128, 32]⟩
abbrev SP : Shape := ⟨3, ![8, 128, 128]⟩

variable (X : SX.Idx → EReal) (T : ST.Idx → BitVec 32)

/-- The diagonal probability of entry (b, i, j, k). -/
def diag (b : Fin 8) (i j : Fin 128) (k : Fin 32) : EReal := X (ix5 b i j k k)

/-- The row maximum of entry (b, i, j, k): the fold of max from −∞ over the row. -/
def rowmax (b : Fin 8) (i j : Fin 128) (k : Fin 32) : EReal :=
  (Finset.univ : Finset (Fin 32)).fold max ⊥ (fun l => X (ix5 b i j k l))

/-- The label as a number. -/
def lab (b : Fin 8) (i j : Fin 128) (k : Fin 32) : EReal := (((T (ix4 b i j k)).toInt : ℝ) : EReal)

/-- The pair mask: 1 off the diagonal of (i, j), 0 on it. -/
def off (i j : Fin 128) : EReal := if i.val ≠ j.val then 1 else 0

/-- Whether the diagonal probability is its row's maximum, as a bit. -/
def isMax (b : Fin 8) (i j : Fin 128) (k : Fin 32) : BitVec 1 := Ideal.cmp .oeq (diag X b i j k) (rowmax X b i j k)

/-! ### The first arrangement -/

/-- The cross-entropy term, masked. -/
def lossK (b : Fin 8) (i j : Fin 128) (k : Fin 32) : EReal :=
  (0 - (lab T b i j k * Ideal.log (diag X b i j k) + (1 - lab T b i j k) * Ideal.log (1 - diag X b i j k))) * off i j

/-- [p = rmax] as a number. -/
def isMaxK (b : Fin 8) (i j : Fin 128) (k : Fin 32) : EReal := Scalar.select (isMax X b i j k) (1 : EReal) 0

/-- The per-label correctness, unmasked. -/
def corK (b : Fin 8) (i j : Fin 128) (k : Fin 32) : EReal :=
  lab T b i j k * isMaxK X b i j k + (1 - lab T b i j k) * (1 - isMaxK X b i j k)

/-- The per-label correctness, masked. -/
def singleK (b : Fin 8) (i j : Fin 128) (k : Fin 32) : EReal := corK X T b i j k * off i j

/-- The all-labels correctness of a pair: the fold of min from +∞ over the labels, masked. -/
def multiK (b : Fin 8) (i j : Fin 128) : EReal :=
  (Finset.univ : Finset (Fin 32)).fold min ⊤ (fun k => corK X T b i j k) * off i j

/-! ### The second arrangement -/

/-- 1 − [i = j], the mask as the second program builds it. -/
def offR (i j : Fin 128) : EReal := 1 - (((IntOp.cmpi .eq (BitVec.ofNat 32 i.val + 0#32) (BitVec.ofNat 32 j.val)).toNat : ℝ) : EReal)

/-- The mask as a bit: 1 − [i = j] > 0. -/
def offB (i j : Fin 128) : BitVec 1 := Ideal.cmp .ogt (offR i j) 0

/-- The cross-entropy term, masked. -/
def lossR (b : Fin 8) (i j : Fin 128) (k : Fin 32) : EReal :=
  (-(Ideal.log (Ideal.pow (diag X b i j k) (lab T b i j k) * Ideal.pow (1 - diag X b i j k) (1 - lab T b i j k)))) * offR i j

/-- The per-label correctness as a bit: [p = rmax] when the label is 1, its negation otherwise. -/
def corR (b : Fin 8) (i j : Fin 128) (k : Fin 32) : BitVec 1 :=
  Scalar.select (Ideal.cmp .oeq (lab T b i j k) 1) (isMax X b i j k) (~~~ isMax X b i j k)

/-- The per-label correctness, masked, as a number. -/
def singleR (b : Fin 8) (i j : Fin 128) (k : Fin 32) : EReal := ((((corR X T b i j k) &&& offB i j).toNat : ℝ) : EReal)

/-- All labels correct, as a bit: the fold of ∧ from 1 over the labels. -/
def allR (b : Fin 8) (i j : Fin 128) : BitVec 1 :=
  (Finset.univ : Finset (Fin 32)).fold (· &&& ·) 1#1 (fun k => corR X T b i j k)

/-- The all-labels correctness of a pair, masked, as a number. -/
def multiR (b : Fin 8) (i j : Fin 128) : EReal := (((allR X T b i j &&& offB i j).toNat : ℝ) : EReal)

end Fsmre

end
-- ==== Proof.TermsEq.lean ====
/-
  The per-entry terms of the two arrangements agree.

  Hypotheses: every probability is a real number, every label is the word 0 or the word 1.
  Write p for the diagonal probability (a real r), g for the label (0 or 1).
  • The masks: for i, j < 128 the 32-bit words of i and j are equal exactly when i = j, so
    1 − [i = j] is 1 off the diagonal and 0 on it, and the bit 1 − [i = j] > 0 is 1 off the
    diagonal and 0 on it.
  • The loss: a real to the power 1 is itself and to the power 0 is 1, and in the extended reals
    0 · x = 0 for every x; so for g = 1 both losses are (−log p) · mask and for g = 0 both are
    (−log (1 − p)) · mask.
  • The correctness: with m the bit [p = rmax], both arrangements give m for g = 1 and ¬m for g = 0;
    so the first arrangement's number is the second arrangement's bit read as a number.
  • A bit read as a number times the mask is the conjunction of the bit with the mask bit, read as a
    number; and the minimum of two bits read as numbers is their conjunction read as a number, so the
    fold of min over the labels is the fold of ∧ (the label set is not empty, so the initial +∞ of the
    fold of min does not survive).
-/
import proofs.«170084_j35639638622669_2_alg».proof.Proof.Terms

namespace Fsmre

open Idealize.ShloMosaic Idealize.ShloMosaic.ValueIdx

/-! ### Bits, and bits read as numbers -/

/-- A one-bit word is 0 or 1. -/
theorem bit_cases (c : BitVec 1) : c = 0#1 ∨ c = 1#1 := BitVec.eq_zero_or_eq_one c

theorem coe_bit_zero : ((((0#1 : BitVec 1).toNat : ℝ)) : EReal) = 0 := by simp
theorem coe_bit_one : ((((1#1 : BitVec 1).toNat : ℝ)) : EReal) = 1 := by simp

/-- A bit read as a number is at most 1. -/
theorem coe_bit_le_one (c : BitVec 1) : (((c.toNat : ℝ)) : EReal) ≤ 1 := by
  rcases bit_cases c with h | h <;> rw [h]
  · rw [coe_bit_zero]; exact zero_le_one
  · rw [coe_bit_one]

/-! ### The few facts of extended-real arithmetic that are used -/

theorem ereal_one_sub_one : (1 : EReal) - 1 = 0 := by
  rw [← EReal.coe_one, ← EReal.coe_sub, sub_self, EReal.coe_zero]

theorem ereal_one_sub_zero : (1 : EReal) - 0 = 1 := by
  rw [← EReal.coe_one, ← EReal.coe_zero, ← EReal.coe_sub, sub_zero]

theorem ereal_one_sub_coe (r : ℝ) : (1 : EReal) - (r : EReal) = ((1 - r : ℝ) : EReal) := by
  rw [← EReal.coe_one, ← EReal.coe_sub]

/-- A real to the power 1 is itself. -/
theorem pow_coe_one' (r : ℝ) : Ideal.pow (r : EReal) 1 = (r : EReal) := by
  rw [← EReal.coe_one, Ideal.pow_coe_coe]
  exact congrArg (fun x : ℝ => (x : EReal)) (Real.rpow_one r)

/-- A real to the power 0 is 1. -/
theorem pow_coe_zero' (r : ℝ) : Ideal.pow (r : EReal) 0 = 1 := by
  rw [← EReal.coe_zero, Ideal.pow_coe_coe, ← EReal.coe_one]
  exact congrArg (fun x : ℝ => (x : EReal)) (Real.rpow_zero r)

theorem cmp_ogt (x y : EReal) : Ideal.cmp .ogt x y = BitVec.ofBool (decide (y < x)) := rfl
theorem cmp_oeq (x y : EReal) : Ideal.cmp .oeq x y = BitVec.ofBool (decide (x = y)) := rfl

variable (X : SX.Idx → EReal) (T : ST.Idx → BitVec 32)

/-! ### The label -/

/-- A label that is the word 0 or the word 1 is the number 0 or the number 1. -/
theorem lab_cases (hT : ∀ q : ST.Idx, T q = 0#32 ∨ T q = 1#32) (b : Fin 8) (i j : Fin 128) (k : Fin 32) :
    lab T b i j k = 0 ∨ lab T b i j k = 1 := by
  have h0 : (0#32 : BitVec 32).toInt = 0 := by decide
  have h1 : (1#32 : BitVec 32).toInt = 1 := by decide
  unfold lab
  rcases hT (ix4 b i j k) with h | h
  · left; rw [h, h0, Int.cast_zero, EReal.coe_zero]
  · right; rw [h, h1, Int.cast_one, EReal.coe_one]

/-! ### The masks -/

/-- For i, j < 128 the comparison of their 32-bit words is the comparison of i and j. -/
theorem cmpi_eq_ofNat (i j : Fin 128) :
    IntOp.cmpi .eq (BitVec.ofNat 32 i.val + 0#32) (BitVec.ofNat 32 j.val) = if i.val = j.val then 1#1 else 0#1 := by
  rw [BitVec.add_zero]
  show BitVec.ofBool (BitVec.ofNat 32 i.val == BitVec.ofNat 32 j.val) = _
  by_cases h : i.val = j.val
  · rw [if_pos h, h, beq_self_eq_true]; rfl
  · rw [if_neg h]
    have hne : BitVec.ofNat 32 i.val ≠ BitVec.ofNat 32 j.val := by
      intro he
      have hi : i.val < 2 ^ 32 := by omega
      have hj : j.val < 2 ^ 32 := by omega
      have := congrArg BitVec.toNat he
      rw [BitVec.toNat_ofNat, BitVec.toNat_ofNat, Nat.mod_eq_of_lt hi, Nat.mod_eq_of_lt hj] at this
      exact h this
    rw [beq_eq_false_iff_ne.mpr hne]; rfl

/-- The second program's mask is the first program's. -/
theorem offR_eq_off (i j : Fin 128) : offR i j = off i j := by
  unfold offR off
  rw [cmpi_eq_ofNat]
  by_cases h : i.val = j.val
  · rw [if_pos h, if_neg (not_not.mpr h), coe_bit_one, ereal_one_sub_one]
  · rw [if_neg h, if_pos h, coe_bit_zero, ereal_one_sub_zero]

/-- The mask bit is 1 off the diagonal and 0 on it. -/
theorem offB_eq (i j : Fin 128) : offB i j = if i.val ≠ j.val then 1#1 else 0#1 := by
  unfold offB
  rw [offR_eq_off, cmp_ogt]
  unfold off
  by_cases h : i.val = j.val
  · rw [if_neg (not_not.mpr h), if_neg (not_not.mpr h), decide_eq_false (lt_irrefl (0 : EReal))]; rfl
  · rw [if_pos h, if_pos h, decide_eq_true (zero_lt_one : (0 : EReal) < 1)]; rfl

/-- A bit read as a number, masked, is the conjunction of the bit with the mask bit read as a number. -/
theorem bit_mul_off (c : BitVec 1) (i j : Fin 128) :
    (((c.toNat : ℝ)) : EReal) * off i j = ((((c &&& offB i j).toNat : ℝ)) : EReal) := by
  rw [offB_eq]; unfold off
  by_cases h : i.val = j.val
  · rw [if_neg (not_not.mpr h), if_neg (not_not.mpr h), mul_zero, BitVec.and_zero, coe_bit_zero]
  · rw [if_pos h, if_pos h, mul_one]
    rcases bit_cases c with hc | hc <;> rw [hc] <;> rfl

/-! ### The loss -/

theorem lossK_eq_lossR (hX : ∀ i : SX.Idx, ∃ r : ℝ, X i = (r : EReal))
    (hT : ∀ q : ST.Idx, T q = 0#32 ∨ T q = 1#32) (b : Fin 8) (i j : Fin 128) (k : Fin 32) :
    lossK X T b i j k = lossR X T b i j k := by
  obtain ⟨r, hr⟩ := hX (ix5 b i j k k)
  have hd : diag X b i j k = (r : EReal) := hr
  unfold lossK lossR
  rw [offR_eq_off, hd, ereal_one_sub_coe]
  rcases lab_cases T hT b i j k with h | h <;> rw [h]
  · simp only [ereal_one_sub_zero, pow_coe_zero', pow_coe_one', zero_mul, zero_add, one_mul, zero_sub]
  · simp only [ereal_one_sub_one, pow_coe_zero', pow_coe_one', zero_mul, add_zero, one_mul, mul_one, zero_sub]

/-! ### The correctness terms -/

/-- [p = rmax] as a number is the bit read as a number. -/
theorem isMaxK_eq_bit (b : Fin 8) (i j : Fin 128) (k : Fin 32) :
    isMaxK X b i j k = ((((isMax X b i j k).toNat : ℝ)) : EReal) := by
  unfold isMaxK
  rcases bit_cases (isMax X b i j k) with h | h <;> rw [h]
  · rw [select_zero, coe_bit_zero]
  · rw [select_one, coe_bit_one]

theorem ofBool_false' : BitVec.ofBool false = 0#1 := rfl
theorem ofBool_true' : BitVec.ofBool true = 1#1 := rfl
theorem not_bit_zero : ~~~(0#1 : BitVec 1) = 1#1 := by decide
theorem not_bit_one : ~~~(1#1 : BitVec 1) = 0#1 := by decide

/-- The first arrangement's per-label correctness is the second arrangement's bit read as a number. -/
theorem corK_eq_bit (hT : ∀ q : ST.Idx, T q = 0#32 ∨ T q = 1#32) (b : Fin 8) (i j : Fin 128) (k : Fin 32) :
    corK X T b i j k = ((((corR X T b i j k).toNat : ℝ)) : EReal) := by
  unfold corK corR
  rw [isMaxK_eq_bit, cmp_oeq]
  rcases lab_cases T hT b i j k with hl | hl <;> rcases bit_cases (isMax X b i j k) with hm | hm <;> rw [hl, hm]
  · rw [decide_eq_false (zero_ne_one : (0 : EReal) ≠ 1), ofBool_false', select_zero, not_bit_zero,
      coe_bit_zero, coe_bit_one, ereal_one_sub_zero, zero_mul, zero_add, mul_one]
  · rw [decide_eq_false (zero_ne_one : (0 : EReal) ≠ 1), ofBool_false', select_zero, not_bit_one,
      coe_bit_one, coe_bit_zero, ereal_one_sub_zero, ereal_one_sub_one, zero_mul, zero_add, mul_zero]
  · rw [decide_eq_true (rfl : (1 : EReal) = 1), ofBool_true', select_one,
      coe_bit_zero, ereal_one_sub_one, mul_zero, zero_mul, add_zero]
  · rw [decide_eq_true (rfl : (1 : EReal) = 1), ofBool_true', select_one,
      coe_bit_one, ereal_one_sub_one, mul_one, zero_mul, add_zero]

theorem singleK_eq_singleR (hT : ∀ q : ST.Idx, T q = 0#32 ∨ T q = 1#32) (b : Fin 8) (i j : Fin 128) (k : Fin 32) :
    singleK X T b i j k = singleR X T b i j k := by
  unfold singleK singleR
  rw [corK_eq_bit X T hT, bit_mul_off]

/-! ### All labels at once -/

/-- The minimum of two bits read as numbers is their conjunction read as a number. -/
theorem min_bits (a c : BitVec 1) :
    min ((((a.toNat : ℝ)) : EReal)) ((((c.toNat : ℝ)) : EReal)) = ((((a &&& c).toNat : ℝ)) : EReal) := by
  rcases bit_cases a with ha | ha <;> rcases bit_cases c with hc | hc <;> rw [ha, hc]
  · rw [min_self]; rfl
  · rw [coe_bit_zero, coe_bit_one, min_eq_left zero_le_one]; exact coe_bit_zero.symm
  · rw [coe_bit_zero, coe_bit_one, min_eq_right zero_le_one]; exact coe_bit_zero.symm
  · rw [min_self]; rfl

/-- The fold of min from +∞ over bits read as numbers, capped at 1, is the fold of ∧ from 1 read as a number. -/
theorem min_one_fold_min_bits {ι : Type} [DecidableEq ι] (g : ι → BitVec 1) (s : Finset ι) :
    min 1 (s.fold min ⊤ (fun k => ((((g k).toNat : ℝ)) : EReal)))
      = ((((s.fold (fun x1 x2 : BitVec 1 => x1 &&& x2) 1#1 g).toNat : ℝ)) : EReal) := by
  induction s using Finset.induction_on with
  | empty => rw [Finset.fold_empty, Finset.fold_empty, coe_bit_one]; exact min_eq_left le_top
  | insert a s ha ih =>
    simp only [Finset.fold_insert ha]
    rw [min_left_comm, ih, min_bits]

theorem multiK_eq_multiR (hT : ∀ q : ST.Idx, T q = 0#32 ∨ T q = 1#32) (b : Fin 8) (i j : Fin 128) :
    multiK X T b i j = multiR X T b i j := by
  unfold multiK multiR allR
  have hf : (fun k => corK X T b i j k) = fun k => ((((corR X T b i j k).toNat : ℝ)) : EReal) :=
    funext fun k => corK_eq_bit X T hT b i j k
  rw [hf, ← bit_mul_off, ← min_one_fold_min_bits]
  congr 1
  refine (min_eq_right ?_).symm
  rw [Finset.fold_min_le]
  exact Or.inr ⟨0, Finset.mem_univ _, coe_bit_le_one _⟩

end Fsmre
-- ==== Proof.LibFinite.lean ====
/-
  Finite inputs as real numbers. A precondition "every entry's magnitude is below plus infinity", read on the extended
  reals, says every entry is a real number: the one-operand reduction by `and` of the entrywise comparisons is 1 exactly
  when each comparison is, and an extended real whose magnitude is below the top element is neither infinity. Also: a
  finite sum of products of real entries is a real number.
-/
import Idealize.ShloMosaic.Lib.ReduceAll
import Idealize.ShloMosaic.Lib.ValueIdx
import Idealize.ShloMosaic.PureOps.Ideal.Laws

namespace Cert.LibFinite

open Idealize.ShloMosaic

/-- An extended real whose magnitude compares below the pattern of plus infinity is a real number. -/
theorem real_of_abs_lt (x : EReal) (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  unfold Ideal.cmp at h
  have hlt : max x (-x) < ⊤ := by
    by_contra hc
    simp only [hc, decide_false] at h
    exact absurd h (by decide)
  induction x using EReal.rec with
  | bot => simp at hlt
  | coe r => exact ⟨r, rfl⟩
  | top => simp at hlt

instance : Subsingleton (⟨0, ![]⟩ : Shape).Idx := ⟨fun a b => funext fun d => d.elim0⟩

/-- `jnp.all (abs x < inf)` equal to 1 gives every entry real. -/
theorem all_real {s : Shape} {axes : List (Fin s.rank)} (x : FVec Ideal s .f32)
    (bc : (⟨0, ![]⟩ : Shape).BroadcastsInDim s (![] : Fin 0 → Fin s.rank)) (hr : s.ReducesTo axes ⟨0, ![]⟩) (hu : 0 < (⟨0, ![]⟩ : Shape).numel)
    (e : Host.reduce IntOp.andi (cmpf .olt (Host.absf x) (broadcastInDim s ![] bc (constant (⟨0, ![]⟩ : Shape) .f32 0x7F800000#32)))
          (constantI (⟨0, ![]⟩ : Shape) 1 1#1) hr hu ValueIdx.ix0 = 1#1) (i : s.Idx) : ∃ r : ℝ, x i = (r : EReal) := by
  have h := Host.reduce_andi_all _ _ hr hu ValueIdx.ix0 e i
  exact real_of_abs_lt (x i) h

/-- A finite sum of products of real entries is a real number. -/
theorem sum_mul_real {ι : Type} [Fintype ι] (f g : ι → EReal) (hf : ∀ k, ∃ r : ℝ, f k = (r : EReal)) (hg : ∀ k, ∃ r : ℝ, g k = (r : EReal)) :
    ∃ r : ℝ, (∑ k, f k * g k) = (r : EReal) := by
  choose a ha using hf
  choose b hb using hg
  refine ⟨∑ k, a k * b k, ?_⟩
  have : ∀ s : Finset ι, (∑ k ∈ s, f k * g k) = ((∑ k ∈ s, a k * b k : ℝ) : EReal) := by
    intro s
    classical
    induction s using Finset.induction_on with
    | empty => simp
    | insert k s hk ih => rw [Finset.sum_insert hk, Finset.sum_insert hk, ih, ha, hb, EReal.coe_add, EReal.coe_mul]
  exact this Finset.univ

end Cert.LibFinite
-- ==== Proof.PreFacts.lean ====
/-
  The precondition, decoded.

  The precondition is one bit: the conjunction of "every entry of X has magnitude below plus infinity" and
  "every entry of T equals 0 or equals 1", each a reduction by `and` over all axes of the entrywise bits.
  When that bit is 1, both reductions are 1, so every entrywise bit is 1. Read on the extended reals,
  a magnitude below the top element means the entry is a real number; an integer comparison for equality
  that is 1 means the two words are equal, and a disjunction of two bits is 1 when one of them is.
-/
import proofs.«170084_j35639638622669_2_alg».proof.Pre_finite_inputs
import proofs.«170084_j35639638622669_2_alg».proof.Proof.Gen.Pre_finite_inputs
import proofs.«170084_j35639638622669_2_alg».proof.Proof.LibFinite
import Idealize.ShloMosaic.PureOps.Ideal
import Idealize.ShloMosaic.Lib.ValueIdx
import Idealize.ShloMosaic.Lib.ReduceAll

namespace Fsmre.Pre

open Idealize.ShloMosaic

/-- The precondition bit equal to 1 says: every entry of X is a real number, and every entry of T is 0 or 1. -/
theorem pre_facts [Cert.Pre_finite_inputs.Facts] (X : FVec Ideal Cert.Pre_finite_inputs.S8x128x128x32x32 .f32)
    (T : IVec Cert.Pre_finite_inputs.S8x128x128x32 32)
    (h : Cert.Pre_finite_inputs.fn (F := Ideal) X T = fun _ => 1#1) :
    (∀ i, ∃ r : ℝ, X i = (r : EReal)) ∧ (∀ q, T q = 0#32 ∨ T q = 1#32) := by
  have h0 := congrFun h ValueIdx.ix0
  unfold Cert.Pre_finite_inputs.fn at h0
  dsimp only at h0
  -- the final conjunction of the two reductions
  have h1 : IntOp.andi _ _ = 1#1 := h0
  obtain ⟨hx, ht⟩ := IntOp.andi_eq_one.1 h1
  refine ⟨fun i => Cert.LibFinite.all_real X _ _ _ hx i, fun q => ?_⟩
  -- the entrywise bit of the second reduction, at q
  have hq := Host.reduce_andi_all _ _ _ _ ValueIdx.ix0 ht q
  have hq' : IntOp.ori (IntOp.cmpi .eq (T q) 0#32) (IntOp.cmpi .eq (T q) 1#32) = 1#1 := hq
  rcases IntOp.ori_eq_one.1 hq' with e | e
  · exact Or.inl (IntOp.cmpi_eq.1 e)
  · exact Or.inr (IntOp.cmpi_eq.1 e)

/-- First half: under the precondition every entry of X is a real number. -/
theorem pre_real [Cert.Pre_finite_inputs.Facts] (X : FVec Ideal Cert.Pre_finite_inputs.S8x128x128x32x32 .f32)
    (T : IVec Cert.Pre_finite_inputs.S8x128x128x32 32)
    (h : Cert.Pre_finite_inputs.fn (F := Ideal) X T = fun _ => 1#1) (i : Cert.Pre_finite_inputs.S8x128x128x32x32.Idx) :
    ∃ r : ℝ, X i = (r : EReal) := (pre_facts X T h).1 i

/-- Second half: under the precondition every entry of T is the word 0 or the word 1. -/
theorem pre_label [Cert.Pre_finite_inputs.Facts] (X : FVec Ideal Cert.Pre_finite_inputs.S8x128x128x32x32 .f32)
    (T : IVec Cert.Pre_finite_inputs.S8x128x128x32 32)
    (h : Cert.Pre_finite_inputs.fn (F := Ideal) X T = fun _ => 1#1) (q : Cert.Pre_finite_inputs.S8x128x128x32.Idx) :
    T q = 0#32 ∨ T q = 1#32 := (pre_facts X T h).2 q

end Fsmre.Pre
-- ==== Proof.RefTotals.lean ====
/-
  The second program's three totals, before their final divisions, as sums of the per-entry terms.

  Each total is the initial value 0 plus the sum over every index of its last array. Read at an index (b, i, j, k),
  that array is, for the first total, the masked cross-entropy term; for the second, the masked per-label correctness
  bit as a number; for the third, at (b, i, j), the masked all-labels correctness bit as a number. Three readings are
  by hand: the sum over the first label axis of the entries masked by the identity matrix is the diagonal entry; the
  reduction by the maximum from −∞ over the second label axis is the fold of max over the row; the reduction by ∧
  from 1 over the labels is the fold of ∧ over the labels.
-/
import proofs.«170084_j35639638622669_2_alg».proof.Proof.RefReadP
import proofs.«170084_j35639638622669_2_alg».proof.Proof.Terms
import Idealize.ShloMosaic.Lib.IdealHost

noncomputable section

namespace Cert.ReferenceIdeal.RefValue

open Cert.ReferenceIdeal Cert.ReferenceIdeal.Gen Idealize.ShloMosaic Idealize.ShloMosaic.ValueIdx Cert.ReferenceIdeal.ReadP

/-- Two words of numbers below 2^32 are equal exactly when the numbers are. -/
theorem cmpi_eq_ofNat (a k : Nat) (ha : a < 2 ^ 32) (hk : k < 2 ^ 32) :
    IntOp.cmpi .eq (BitVec.ofNat 32 a) (BitVec.ofNat 32 k) = if a = k then 1#1 else 0#1 := by
  unfold IntOp.cmpi
  by_cases h : a = k
  · subst h; simp
  · have hne : BitVec.ofNat 32 a ≠ BitVec.ofNat 32 k := fun e => h (by
      have := congrArg BitVec.toNat e
      simp only [BitVec.toNat_ofNat] at this
      rw [Nat.mod_eq_of_lt ha, Nat.mod_eq_of_lt hk] at this
      exact this)
    rw [if_neg h]
    show BitVec.ofBool (BitVec.ofNat 32 a == BitVec.ofNat 32 k) = 0#1
    rw [beq_eq_false_iff_ne.mpr hne]
    rfl

/-- The index of the summed array over a result index and a summed coordinate, by coordinates. -/
theorem idx_v7_ix (b : Fin 8) (i j : Fin 128) (k a : Fin 32) :
    idx_main_v7 (ix4 b i j k) a = ix5 b i j a k :=
  funext fun c => Fin.ext (by match c with | ⟨0, _⟩ => rfl | ⟨1, _⟩ => rfl | ⟨2, _⟩ => rfl | ⟨3, _⟩ => rfl | ⟨4, _⟩ => rfl)

/-- An entry masked by the identity matrix on the two label axes. -/
theorem v6_at (x0 : (⟨S8x128x128x32x32, .f32⟩ : BufTy).Contents (Elt Ideal)) (b : Fin 8) (i j : Fin 128) (k a : Fin 32) :
    val_main_v6 (F := Ideal) x0 (ix5 b i j a k) = if a = k then x0 (ix5 b i j a k) else 0 := by
  rw [val_main_v6_apply, val_main_v4_apply, val_main_v3_apply, val_main_v1_apply, val_main_v2_apply, val_main_v5_apply, val_main_cst_apply]
  show Scalar.select (IntOp.cmpi .eq (BitVec.ofNat 32 a.val) (BitVec.ofNat 32 k.val)) (x0 (ix5 b i j a k)) (Ideal.ofBits .f32 0x00000000#32) = _
  rw [Ideal.ofBits_zero_f32, cmpi_eq_ofNat _ _ (by have := a.isLt; omega) (by have := k.isLt; omega)]
  by_cases h : a = k
  · rw [if_pos (congrArg Fin.val h), if_pos h, select_one]
  · rw [if_neg (fun e => h (Fin.ext e)), if_neg h, select_zero]

/-- The diagonal: the sum over the first label axis of the entries masked by the identity is the diagonal entry. -/
theorem v7_at (x0 : (⟨S8x128x128x32x32, .f32⟩ : BufTy).Contents (Elt Ideal)) (b : Fin 8) (i j : Fin 128) (k : Fin 32) :
    val_main_v7 (F := Ideal) x0 (ix4 b i j k) = Fsmre.diag x0 b i j k := by
  rw [val_main_v7_apply, val_main_cst_0_apply]
  show Ideal.ofBits .f32 0x00000000#32 + _ = _
  rw [Ideal.ofBits_zero_f32, zero_add]
  simp only [idx_v7_ix, v6_at]
  rw [Finset.sum_ite_eq' Finset.univ k]
  simp [Fsmre.diag]

/-- The label as a number. -/
theorem v0_at (x1 : (⟨S8x128x128x32, .i32⟩ : BufTy).Contents (Elt Ideal)) (b : Fin 8) (i j : Fin 128) (k : Fin 32) :
    val_main_v0 (F := Ideal) x1 (ix4 b i j k) = Fsmre.lab x1 b i j k := rfl

/-- The pair mask 1 − [i = j], broadcast over the batch and the labels. -/
theorem v25_at (i j : Fin 128) (z0 z3 : Fin 1) :
    val_main_v25 (F := Ideal) (ix4 z0 i j z3) = Fsmre.offR i j := by
  rw [val_main_v25_apply, val_main_v24_apply, val_main_v23_apply, val_main_cst_3_apply, val_main_v22_apply, val_main_v21_apply,
    val_main_v20_apply, val_main_v17_apply, val_main_v19_apply, val_main_c_apply, val_main_v18_apply]
  show Ideal.ofBits .f32 0x3F800000#32 - (((IntOp.cmpi .eq (IntOp.addi (BitVec.ofNat 32 i.val) 0#32) (BitVec.ofNat 32 j.val)).toNat : ℝ) : EReal) = _
  rw [Ideal.ofBits_one_f32]
  rfl

theorem idx_v26_ix (b : Fin 8) (i j : Fin 128) (k : Fin 32) :
    idx_main_v26 (ix4 b i j k) = ix4 (0 : Fin 1) i j (0 : Fin 1) :=
  funext fun c => Fin.ext (by match c with | ⟨0, _⟩ => rfl | ⟨1, _⟩ => rfl | ⟨2, _⟩ => rfl | ⟨3, _⟩ => rfl)

theorem v26_at (b : Fin 8) (i j : Fin 128) (k : Fin 32) :
    val_main_v26 (F := Ideal) (ix4 b i j k) = Fsmre.offR i j := by
  rw [val_main_v26_apply, idx_v26_ix, v25_at]

/-- The masked cross-entropy term of the second arrangement. -/
theorem v27_at (x0 : (⟨S8x128x128x32x32, .f32⟩ : BufTy).Contents (Elt Ideal)) (x1 : (⟨S8x128x128x32, .i32⟩ : BufTy).Contents (Elt Ideal))
    (b : Fin 8) (i j : Fin 128) (k : Fin 32) :
    val_main_v27 (F := Ideal) x0 x1 (ix4 b i j k) = Fsmre.lossR x0 x1 b i j k := by
  rw [val_main_v27_apply, val_main_v16_apply, val_main_v15_apply, val_main_v14_apply, val_main_v8_apply, val_main_v13_apply,
    val_main_v10_apply, val_main_v12_apply, val_main_v9_apply, val_main_v11_apply, val_main_cst_1_apply, val_main_cst_2_apply,
    v7_at, v0_at, v26_at]
  show (-(Ideal.log (Ideal.pow (Fsmre.diag x0 b i j k) (Fsmre.lab x1 b i j k)
      * Ideal.pow (Ideal.ofBits .f32 0x3F800000#32 - Fsmre.diag x0 b i j k) (Ideal.ofBits .f32 0x3F800000#32 - Fsmre.lab x1 b i j k))))
      * Fsmre.offR i j = _
  rw [Ideal.ofBits_one_f32]
  rfl

/-- The first total before its divisions: the sum of the masked cross-entropy terms. -/
theorem loss_total (x0 : (⟨S8x128x128x32x32, .f32⟩ : BufTy).Contents (Elt Ideal)) (x1 : (⟨S8x128x128x32, .i32⟩ : BufTy).Contents (Elt Ideal)) :
    ReadP.val_main_v28 (F := Ideal) x0 x1 = fun _ => 0 + ∑ q : Fsmre.ST.Idx, Fsmre.lossR x0 x1 (q 0) (q 1) (q 2) (q 3) := by
  funext i
  rw [val_main_v28_apply, val_main_cst_4_apply]
  show Ideal.ofBits .f32 0x00000000#32 + _ = _
  rw [Ideal.ofBits_zero_f32]
  refine congrArg (0 + ·) (Finset.sum_congr rfl fun q _ => ?_)
  exact (congrArg (val_main_v27 (F := Ideal) x0 x1) (eq_ix4 q)).trans (v27_at x0 x1 (q 0) (q 1) (q 2) (q 3))

/-- The index over a result index of the row axis's coordinate, by coordinates. -/
theorem lift_d4_ix (hR : S8x128x128x32x32.Reduces [(4 : Fin 5)] S8x128x128x32) (b : Fin 8) (i j : Fin 128) (k l : Fin 32) :
    hR.lift (ix4 b i j k) l = ix5 b i j k l :=
  funext fun c => Fin.ext (by match c with | ⟨0, _⟩ => rfl | ⟨1, _⟩ => rfl | ⟨2, _⟩ => rfl | ⟨3, _⟩ => rfl | ⟨4, _⟩ => rfl)

/-- The bit pattern of −∞. -/
theorem ofBits_neg_inf_f32 : Ideal.ofBits .f32 0xFF800000#32 = ⊥ := by simp [Ideal.ofBits, Ideal.ieee]

/-- A reduction by the maximum over the second label axis is, at an index, the fold of max over the row from the initial value. -/
theorem hostReduce_max_row (x : S8x128x128x32x32.Idx → EReal) (init : S_.Idx → EReal) (b : Fin 8) (i j : Fin 128) (k : Fin 32) :
    Host.reduce (FloatOps.maximumf (F := Ideal) (φ := .f32)) x init reducesTo_S8x128x128x32x32_S8x128x128x32_d4 h_S_ (ix4 b i j k)
      = (Finset.univ : Finset (Fin 32)).fold max (init (Shape.Idx.first h_S_)) (fun l => x (ix5 b i j k l)) := by
  have hR : S8x128x128x32x32.Reduces [(4 : Fin 5)] S8x128x128x32 := by decide
  rw [Host.reduce_eq_fold_single (FloatOps.maximumf (F := Ideal) (φ := .f32)) x init reducesTo_S8x128x128x32x32_S8x128x128x32_d4 hR h_S_]
  have hf : (x ∘ hR.lift (ix4 b i j k)) = fun l : Fin 32 => x (ix5 b i j k l) := funext fun l => congrArg x (lift_d4_ix hR b i j k l)
  exact congrArg (fun f => Finset.fold max (init (Shape.Idx.first h_S_)) f (Finset.univ : Finset (Fin 32))) hf

/-- The row maximum: the fold of max from −∞ over the row. -/
theorem v31_at (x0 : (⟨S8x128x128x32x32, .f32⟩ : BufTy).Contents (Elt Ideal)) (b : Fin 8) (i j : Fin 128) (k : Fin 32) :
    val_main_v31 (F := Ideal) x0 (ix4 b i j k) = Fsmre.rowmax x0 b i j k := by
  unfold val_main_v31
  refine (hostReduce_max_row x0 _ b i j k).trans ?_
  rw [val_main_cst_7_apply]
  show (Finset.univ : Finset (Fin 32)).fold max (Ideal.ofBits .f32 0xFF800000#32) _ = _
  rw [ofBits_neg_inf_f32]
  rfl

/-- Whether the diagonal probability is its row's maximum. -/
theorem v32_at (x0 : (⟨S8x128x128x32x32, .f32⟩ : BufTy).Contents (Elt Ideal)) (b : Fin 8) (i j : Fin 128) (k : Fin 32) :
    val_main_v32 (F := Ideal) x0 (ix4 b i j k) = Fsmre.isMax x0 b i j k := by
  rw [val_main_v32_apply, v7_at, v31_at]
  rfl

/-- The per-label correctness bit: [p = rmax] when the label is 1, its negation otherwise. -/
theorem v36_at (x0 : (⟨S8x128x128x32x32, .f32⟩ : BufTy).Contents (Elt Ideal)) (x1 : (⟨S8x128x128x32, .i32⟩ : BufTy).Contents (Elt Ideal))
    (b : Fin 8) (i j : Fin 128) (k : Fin 32) :
    val_main_v36 (F := Ideal) x0 x1 (ix4 b i j k) = Fsmre.corR x0 x1 b i j k := by
  rw [val_main_v36_apply, val_main_v35_apply, val_main_v34_apply, val_main_v33_apply, val_main_cst_8_apply, v32_at, v0_at]
  show Scalar.select (Ideal.cmp .oeq (Fsmre.lab x1 b i j k) (Ideal.ofBits .f32 0x3F800000#32)) (Fsmre.isMax x0 b i j k) (~~~ Fsmre.isMax x0 b i j k) = _
  rw [Ideal.ofBits_one_f32]
  rfl

/-- The pair mask as a bit. -/
theorem v38_at (i j : Fin 128) (z0 z3 : Fin 1) :
    val_main_v38 (F := Ideal) (ix4 z0 i j z3) = Fsmre.offB i j := by
  rw [val_main_v38_apply, v25_at, val_main_v37_apply, val_main_cst_9_apply]
  show Ideal.cmp .ogt (Fsmre.offR i j) (Ideal.ofBits .f32 0x00000000#32) = _
  rw [Ideal.ofBits_zero_f32]
  rfl

theorem idx_v39_ix (b : Fin 8) (i j : Fin 128) (k : Fin 32) :
    idx_main_v39 (ix4 b i j k) = ix4 (0 : Fin 1) i j (0 : Fin 1) :=
  funext fun c => Fin.ext (by match c with | ⟨0, _⟩ => rfl | ⟨1, _⟩ => rfl | ⟨2, _⟩ => rfl | ⟨3, _⟩ => rfl)

/-- The masked per-label correctness, as a number. -/
theorem v41_at (x0 : (⟨S8x128x128x32x32, .f32⟩ : BufTy).Contents (Elt Ideal)) (x1 : (⟨S8x128x128x32, .i32⟩ : BufTy).Contents (Elt Ideal))
    (b : Fin 8) (i j : Fin 128) (k : Fin 32) :
    val_main_v41 (F := Ideal) x0 x1 (ix4 b i j k) = Fsmre.singleR x0 x1 b i j k := by
  rw [val_main_v41_apply, val_main_v40_apply, val_main_v39_apply, idx_v39_ix, v38_at, v36_at]
  rfl

/-- The second total before its division: the sum of the masked per-label correctness terms. -/
theorem single_total (x0 : (⟨S8x128x128x32x32, .f32⟩ : BufTy).Contents (Elt Ideal)) (x1 : (⟨S8x128x128x32, .i32⟩ : BufTy).Contents (Elt Ideal)) :
    ReadP.val_main_v42 (F := Ideal) x0 x1 = fun _ => 0 + ∑ q : Fsmre.ST.Idx, Fsmre.singleR x0 x1 (q 0) (q 1) (q 2) (q 3) := by
  funext i
  rw [val_main_v42_apply, val_main_cst_10_apply]
  show Ideal.ofBits .f32 0x00000000#32 + _ = _
  rw [Ideal.ofBits_zero_f32]
  refine congrArg (0 + ·) (Finset.sum_congr rfl fun q _ => ?_)
  exact (congrArg (val_main_v41 (F := Ideal) x0 x1) (eq_ix4 q)).trans (v41_at x0 x1 (q 0) (q 1) (q 2) (q 3))

/-- The index over a pair of the label axis's coordinate, by coordinates. -/
theorem lift_d3_ix (hR : S8x128x128x32.Reduces [(3 : Fin 4)] S8x128x128) (b : Fin 8) (i j : Fin 128) (k : Fin 32) :
    hR.lift (ix3 b i j) k = ix4 b i j k :=
  funext fun c => Fin.ext (by match c with | ⟨0, _⟩ => rfl | ⟨1, _⟩ => rfl | ⟨2, _⟩ => rfl | ⟨3, _⟩ => rfl)

/-- A reduction by ∧ over the labels is, at a pair, the fold of ∧ over the labels from the initial value. -/
theorem hostReduce_and_labels (x : S8x128x128x32.Idx → BitVec 1) (init : S_.Idx → BitVec 1) (b : Fin 8) (i j : Fin 128) :
    Host.reduce (IntOp.andi (w := 1)) x init reducesTo_S8x128x128x32_S8x128x128_d3 h_S_ (ix3 b i j)
      = (Finset.univ : Finset (Fin 32)).fold ((· &&& ·) : BitVec 1 → BitVec 1 → BitVec 1) (init (Shape.Idx.first h_S_)) (fun k => x (ix4 b i j k)) := by
  have hR : S8x128x128x32.Reduces [(3 : Fin 4)] S8x128x128 := by decide
  rw [Host.reduce_eq_fold_single (IntOp.andi (w := 1)) x init reducesTo_S8x128x128x32_S8x128x128_d3 hR h_S_]
  have hf : (x ∘ hR.lift (ix3 b i j)) = fun k : Fin 32 => x (ix4 b i j k) := funext fun k => congrArg x (lift_d3_ix hR b i j k)
  exact congrArg (fun f => Finset.fold ((· &&& ·) : BitVec 1 → BitVec 1 → BitVec 1) (init (Shape.Idx.first h_S_)) f (Finset.univ : Finset (Fin 32))) hf

/-- All labels correct, as a bit. -/
theorem v44_at (x0 : (⟨S8x128x128x32x32, .f32⟩ : BufTy).Contents (Elt Ideal)) (x1 : (⟨S8x128x128x32, .i32⟩ : BufTy).Contents (Elt Ideal))
    (b : Fin 8) (i j : Fin 128) :
    val_main_v44 (F := Ideal) x0 x1 (ix3 b i j) = Fsmre.allR x0 x1 b i j := by
  unfold val_main_v44
  refine (hostReduce_and_labels _ _ b i j).trans ?_
  rw [val_main_c_12_apply]
  simp only [v36_at]
  rfl

theorem idx_v45_ix (b : Fin 8) (i j : Fin 128) (z : Fin 1) :
    idx_main_v45 (ix4 b i j z) = ix3 b i j :=
  funext fun c => Fin.ext (by match c with | ⟨0, _⟩ => rfl | ⟨1, _⟩ => rfl | ⟨2, _⟩ => rfl)

theorem idx_v46_ix (b : Fin 8) (i j : Fin 128) (z : Fin 1) :
    idx_main_v46 (ix4 b i j z) = ix4 (0 : Fin 1) i j (0 : Fin 1) :=
  funext fun c => Fin.ext (by match c with | ⟨0, _⟩ => rfl | ⟨1, _⟩ => rfl | ⟨2, _⟩ => rfl | ⟨3, _⟩ => rfl)

/-- The masked all-labels correctness of a pair, as a number. -/
theorem v48_at (x0 : (⟨S8x128x128x32x32, .f32⟩ : BufTy).Contents (Elt Ideal)) (x1 : (⟨S8x128x128x32, .i32⟩ : BufTy).Contents (Elt Ideal))
    (b : Fin 8) (i j : Fin 128) (z : Fin 1) :
    val_main_v48 (F := Ideal) x0 x1 (ix4 b i j z) = Fsmre.multiR x0 x1 b i j := by
  rw [val_main_v48_apply, val_main_v47_apply, val_main_v45_apply, val_main_v46_apply, idx_v45_ix, idx_v46_ix, v44_at, v38_at]
  rfl

/-- The third total before its division: the sum of the masked all-labels correctness terms. -/
theorem multi_total (x0 : (⟨S8x128x128x32x32, .f32⟩ : BufTy).Contents (Elt Ideal)) (x1 : (⟨S8x128x128x32, .i32⟩ : BufTy).Contents (Elt Ideal)) :
    ReadP.val_main_v49 (F := Ideal) x0 x1 = fun _ => 0 + ∑ r : (⟨4, ![8, 128, 128, 1]⟩ : Shape).Idx, Fsmre.multiR x0 x1 (r 0) (r 1) (r 2) := by
  funext i
  rw [val_main_v49_apply, val_main_cst_13_apply]
  show Ideal.ofBits .f32 0x00000000#32 + _ = _
  rw [Ideal.ofBits_zero_f32]
  refine congrArg (0 + ·) (Finset.sum_congr rfl fun r _ => ?_)
  exact (congrArg (val_main_v48 (F := Ideal) x0 x1) (eq_ix4 r)).trans (v48_at x0 x1 (r 0) (r 1) (r 2) (r 3))

end Cert.ReferenceIdeal.RefValue

end
-- ==== Proof.Regroup.lean ====
/-
  Regrouping the sums.

  The first program visits the entries in 128 steps t = 16·b + jt (b < 8, jt < 16) and at step t
  adds the entries (b, n, 8·jt + u, k) over n < 128, u < 8, k < 32; the second adds over all index
  tuples at once. The map (t, u) ↦ (t / 16, 8·(t % 16) + u) is a bijection of
  {0..127} × {0..7} onto {0..7} × {0..127}, with inverse (b, j) ↦ (16·b + j / 8, j % 8); so in any
  additive commutative monoid the two sums are equal.
-/
import proofs.«170084_j35639638622669_2_alg».proof.Proof.Terms

namespace Fsmre

open Idealize.ShloMosaic Idealize.ShloMosaic.ValueIdx

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f,
    Fintype.sum_prod_type]
  refine Finset.sum_congr rfl fun a _ => ?_
  rw [Fintype.sum_prod_type]
  refine Finset.sum_congr rfl fun b _ => ?_
  rw [Fintype.sum_prod_type]
  rfl

/-- The bijection (t, u) ↦ (t / 16, 8·(t % 16) + u). -/
def stepEquiv : Fin 128 × Fin 8 ≃ Fin 8 × Fin 128 where
  toFun p := (⟨p.1.val / 16, by omega⟩, ⟨8 * (p.1.val % 16) + p.2.val, by omega⟩)
  invFun q := (⟨16 * q.1.val + q.2.val / 8, by omega⟩, ⟨q.2.val % 8, by omega⟩)
  left_inv p := by
    rcases p with ⟨⟨t, ht⟩, ⟨u, hu⟩⟩
    simp only [Prod.mk.injEq, Fin.mk.injEq]
    constructor <;> omega
  right_inv q := by
    rcases q with ⟨⟨b, hb⟩, ⟨j, hj⟩⟩
    simp only [Prod.mk.injEq, Fin.mk.injEq]
    constructor <;> omega

/-- The sum over the steps and the offsets within a step is the sum over the pairs (b, j). -/
theorem sum_steps2 {M : Type*} [AddCommMonoid M] (H : Fin 8 → Fin 128 → M) :
    (∑ t : Fin 128, ∑ u : Fin 8, H ⟨t.val / 16, by omega⟩ ⟨8 * (t.val % 16) + u.val, by omega⟩)
      = ∑ b : Fin 8, ∑ j : Fin 128, H b j := by
  calc (∑ t : Fin 128, ∑ u : Fin 8, H ⟨t.val / 16, by omega⟩ ⟨8 * (t.val % 16) + u.val, by omega⟩)
      = ∑ p : Fin 128 × Fin 8, H (stepEquiv p).1 (stepEquiv p).2 :=
        (Fintype.sum_prod_type' (fun (t : Fin 128) (u : Fin 8) => H (stepEquiv (t, u)).1 (stepEquiv (t, u)).2)).symm
    _ = ∑ q : Fin 8 × Fin 128, H q.1 q.2 :=
        Fintype.sum_equiv stepEquiv _ _ (fun _ => rfl)
    _ = ∑ b : Fin 8, ∑ j : Fin 128, H b j := Fintype.sum_prod_type' H

/-- The first program's order of summation over the entries (b, n, j, k) against the sum over all index tuples. -/
theorem sum_steps4 {M : Type*} [AddCommMonoid M] (f : Fin 8 → Fin 128 → Fin 128 → Fin 32 → M) :
    (∑ t : Fin 128, ∑ n : Fin 128, ∑ u : Fin 8, ∑ k : Fin 32,
        f ⟨t.val / 16, by omega⟩ n ⟨8 * (t.val % 16) + u.val, by omega⟩ k)
      = ∑ q : ST.Idx, f (q 0) (q 1) (q 2) (q 3) := by
  calc (∑ t : Fin 128, ∑ n : Fin 128, ∑ u : Fin 8, ∑ k : Fin 32,
        f ⟨t.val / 16, by omega⟩ n ⟨8 * (t.val % 16) + u.val, by omega⟩ k)
      = ∑ t : Fin 128, ∑ u : Fin 8, ∑ n : Fin 128, ∑ k : Fin 32,
        f ⟨t.val / 16, by omega⟩ n ⟨8 * (t.val % 16) + u.val, by omega⟩ k :=
        Finset.sum_congr rfl fun _ _ => Finset.sum_comm
    _ = ∑ b : Fin 8, ∑ j : Fin 128, ∑ n : Fin 128, ∑ k : Fin 32, f b n j k :=
        sum_steps2 (fun b j => ∑ n : Fin 128, ∑ k : Fin 32, f b n j k)
    _ = ∑ b : Fin 8, ∑ n : Fin 128, ∑ j : Fin 128, ∑ k : Fin 32, f b n j k :=
        Finset.sum_congr rfl fun _ _ => Finset.sum_comm
    _ = ∑ q : ST.Idx, f (q 0) (q 1) (q 2) (q 3) :=
        (sum_idx4 (fun q : ST.Idx => f (q 0) (q 1) (q 2) (q 3))).symm

/-- The same for the per-pair terms (b, n, j), against the sum over the index tuples of shape 8 × 128 × 128 × 1. -/
theorem sum_steps3 {M : Type*} [AddCommMonoid M] (g : Fin 8 → Fin 128 → Fin 128 → M) :
    (∑ t : Fin 128, ∑ n : Fin 128, ∑ u : Fin 8,
        g ⟨t.val / 16, by omega⟩ n ⟨8 * (t.val % 16) + u.val, by omega⟩)
      = ∑ r : (⟨4, ![8, 128, 128, 1]⟩ : Shape).Idx, g (r 0) (r 1) (r 2) := by
  calc (∑ t : Fin 128, ∑ n : Fin 128, ∑ u : Fin 8,
        g ⟨t.val / 16, by omega⟩ n ⟨8 * (t.val % 16) + u.val, by omega⟩)
      = ∑ t : Fin 128, ∑ u : Fin 8, ∑ n : Fin 128,
        g ⟨t.val / 16, by omega⟩ n ⟨8 * (t.val % 16) + u.val, by omega⟩ :=
        Finset.sum_congr rfl fun _ _ => Finset.sum_comm
    _ = ∑ b : Fin 8, ∑ j : Fin 128, ∑ n : Fin 128, g b n j :=
        sum_steps2 (fun b j => ∑ n : Fin 128, g b n j)
    _ = ∑ b : Fin 8, ∑ n : Fin 128, ∑ j : Fin 128, g b n j :=
        Finset.sum_congr rfl fun _ _ => Finset.sum_comm
    _ = ∑ b : Fin 8, ∑ n : Fin 128, ∑ j : Fin 128, ∑ _d : Fin 1, g b n j := by
        simp only [Finset.univ_unique, Finset.sum_singleton]
    _ = ∑ r : (⟨4, ![8, 128, 128, 1]⟩ : Shape).Idx, g (r 0) (r 1) (r 2) :=
        (sum_idx4 (fun r : (⟨4, ![8, 128, 128, 1]⟩ : Shape).Idx => g (r 0) (r 1) (r 2))).symm

end Fsmre
-- ==== Proof.KPieces.lean ====
/-
  What one grid point leaves in the three accumulators.

  The body, at every point, adds to each of the three one-element accumulators the point's partial total
  (of the masked cross-entropy terms, of the masked per-label correctness, of the masked all-labels
  correctness); at the first point it first stores zero. So after point n each accumulator holds the
  left-nested total  ((0 + P 0) + P 1) + … + P n  of the partial totals P t of the points so far. Here the
  partial totals are still the body's own terms of the point's three input blocks; the next modules read them
  as sums over the block's entries.
-/
import proofs.«170084_j35639638622669_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The zero the first point stores. -/
abbrev zero : Vec F S1x1 .f32 := broadcast S1x1 (Scalar.ofBits .f32 0x00000000#32)

/-- The loss accumulator after a point, from what it held before: the old value plus the point's total of the
    masked cross-entropy terms of the blocks `x0` (probabilities), `x1` (labels), `x2` (the identity pattern). -/
def acc3 (i : grid0.Coords) (x0 : Vec F S1x128x8x32x32 .f32) (x1 : Vec F S1x128x8x32 .i32) (x2 : Vec F S32x32 .f32) (xo : Vec F S1x1 .f32) : Vec F S1x1 .f32 :=
  k0_pay17 (k0_pay10 x0 x1 x2) (k0_pay11 i) (Scalar.ofBits .f32 0x00000000#32) (k0_pay12 (F := F)) xo

/-- The per-label accumulator after a point: the old value plus the point's total of the masked correctness terms. -/
def acc4 (i : grid0.Coords) (x0 : Vec F S1x128x8x32x32 .f32) (x1 : Vec F S1x128x8x32 .i32) (x2 : Vec F S32x32 .f32) (xo : Vec F S1x1 .f32) : Vec F S1x1 .f32 :=
  k0_pay1 (k0_pay15 (k0_pay7 x1) (k0_pay8 x0 x2) (k0_pay9 x0) (k0_pay11 i) (Scalar.ofBits .f32 0x00000000#32) (k0_pay12 (F := F))) xo

/-- The all-labels accumulator after a point: the old value plus the point's total of the masked per-pair minima. -/
def acc5 (i : grid0.Coords) (x0 : Vec F S1x128x8x32x32 .f32) (x1 : Vec F S1x128x8x32 .i32) (x2 : Vec F S32x32 .f32) (xo : Vec F S1x1 .f32) : Vec F S1x1 .f32 :=
  k0_pay2 (k0_pay16 (k0_pay7 x1) (k0_pay8 x0 x2) (k0_pay9 x0) (k0_pay11 i) (Scalar.ofBits .f32 0x00000000#32) (k0_pay12 (F := F))) xo

/-! ### A later point: the accumulator's one store is the old value plus the partial total -/

theorem out_B_3 (c : Dev nD) (i : grid0.Coords) (a2 : Memref sig .tc .vmem S1x128x8x32x32 .f32) (h2 : a2.IsWhole) (a3 : Memref sig .tc .vmem S1x128x8x32 .i32) (h3 : a3.IsWhole) (a4 : Memref sig .tc .vmem S32x32 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc : ¬cond0_0 i)
    (x0 : Vec F S1x128x8x32x32 .f32) (x1 : Vec F S1x128x8x32 .i32) (x2 : Vec F S32x32 .f32) (xo3 xo4 xo5 : Vec F S1x1 .f32) :
    out0_B_3 c i a2 h2 a3 h3 a4 h4 a5 h5 a6 h6 a7 h7 hc x0 x1 x2 xo3 xo4 xo5 = acc3 i x0 x1 x2 xo3 := by
  unfold out0_B_3
  rw [View.read_writes_eq_canon _ _ _ (cover0_B_3 c i a2 h2 a3 h3 a4 h4 a5 h5 a6 h6 a7 h7 hc x0 x1 x2 xo3 xo4 xo5)]
  unfold kernelRun0_B
  dsimp only
  sl_unfold_words
  rw [View.canon_unit_zero hz2]
  unfold acc3
  simp only [View.readAt_eq_ld, h2.read_unread, h3.read_unread, h4.read_unread, h5.read_unread, h6.read_unread, h7.read_unread, View.ld_unit_zero (S := S1x128x8x32x32) hz5, View.ld_unit_zero (S := S1x128x8x32) hz4, View.ld_unit_zero (S := S32x32) hz2, View.ld_unit_zero (S := S1x1) hz2]

theorem out_B_4 (c : Dev nD) (i : grid0.Coords) (a2 : Memref sig .tc .vmem S1x128x8x32x32 .f32) (h2 : a2.IsWhole) (a3 : Memref sig .tc .vmem S1x128x8x32 .i32) (h3 : a3.IsWhole) (a4 : Memref sig .tc .vmem S32x32 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc : ¬cond0_0 i)
    (x0 : Vec F S1x128x8x32x32 .f32) (x1 : Vec F S1x128x8x32 .i32) (x2 : Vec F S32x32 .f32) (xo3 xo4 xo5 : Vec F S1x1 .f32) :
    out0_B_4 c i a2 h2 a3 h3 a4 h4 a5 h5 a6 h6 a7 h7 hc x0 x1 x2 xo3 xo4 xo5 = acc4 i x0 x1 x2 xo4 := by
  unfold out0_B_4
  rw [View.read_writes_eq_canon _ _ _ (cover0_B_4 c i a2 h2 a3 h3 a4 h4 a5 h5 a6 h6 a7 h7 hc x0 x1 x2 xo3 xo4 xo5)]
  unfold kernelRun0_B
  dsimp only
  sl_unfold_words
  rw [View.canon_unit_zero hz2]
  unfold acc4
  simp only [View.readAt_eq_ld, h2.read_unread, h3.read_unread, h4.read_unread, h5.read_unread, h6.read_unread, h7.read_unread, View.ld_unit_zero (S := S1x128x8x32x32) hz5, View.ld_unit_zero (S := S1x128x8x32) hz4, View.ld_unit_zero (S := S32x32) hz2, View.ld_unit_zero (S := S1x1) hz2]

theorem out_B_5 (c : Dev nD) (i : grid0.Coords) (a2 : Memref sig .tc .vmem S1x128x8x32x32 .f32) (h2 : a2.IsWhole) (a3 : Memref sig .tc .vmem S1x128x8x32 .i32) (h3 : a3.IsWhole) (a4 : Memref sig .tc .vmem S32x32 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc : ¬cond0_0 i)
    (x0 : Vec F S1x128x8x32x32 .f32) (x1 : Vec F S1x128x8x32 .i32) (x2 : Vec F S32x32 .f32) (xo3 xo4 xo5 : Vec F S1x1 .f32) :
    out0_B_5 c i a2 h2 a3 h3 a4 h4 a5 h5 a6 h6 a7 h7 hc x0 x1 x2 xo3 xo4 xo5 = acc5 i x0 x1 x2 xo5 := by
  unfold out0_B_5
  rw [View.read_writes_eq_canon _ _ _ (cover0_B_5 c i a2 h2 a3 h3 a4 h4 a5 h5 a6 h6 a7 h7 hc x0 x1 x2 xo3 xo4 xo5)]
  unfold kernelRun0_B
  dsimp only
  sl_unfold_words
  rw [View.canon_unit_zero hz2]
  unfold acc5
  simp only [View.readAt_eq_ld, h2.read_unread, h3.read_unread, h4.read_unread, h5.read_unread, h6.read_unread, h7.read_unread, View.ld_unit_zero (S := S1x128x8x32x32) hz5, View.ld_unit_zero (S := S1x128x8x32) hz4, View.ld_unit_zero (S := S32x32) hz2, View.ld_unit_zero (S := S1x1) hz2]

/-! ### The first point: zero is stored, read back, and the partial total added -/

theorem out_A_3 (c : Dev nD) (i : grid0.Coords) (a2 : Memref sig .tc .vmem S1x128x8x32x32 .f32) (h2 : a2.IsWhole) (a3 : Memref sig .tc .vmem S1x128x8x32 .i32) (h3 : a3.IsWhole) (a4 : Memref sig .tc .vmem S32x32 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc : cond0_0 i)
    (x0 : Vec F S1x128x8x32x32 .f32) (x1 : Vec F S1x128x8x32 .i32) (x2 : Vec F S32x32 .f32) :
    out0_A_3 c i a2 h2 a3 h3 a4 h4 a5 h5 a6 h6 a7 h7 hc x0 x1 x2 = acc3 i x0 x1 x2 zero := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_cons_unit_zero (S := S1x1) hz2, View.readCov_unit_zero (S := S1x1) _ hz2]
  unfold acc3
  simp only [View.readAt_eq_ld, h2.read_unread, h3.read_unread, h4.read_unread, h5.read_unread, h6.read_unread, h7.read_unread, View.ld_unit_zero (S := S1x128x8x32x32) hz5, View.ld_unit_zero (S := S1x128x8x32) hz4, View.ld_unit_zero (S := S32x32) hz2, View.ld_unit_zero (S := S1x1) hz2]
  rfl

theorem out_A_4 (c : Dev nD) (i : grid0.Coords) (a2 : Memref sig .tc .vmem S1x128x8x32x32 .f32) (h2 : a2.IsWhole) (a3 : Memref sig .tc .vmem S1x128x8x32 .i32) (h3 : a3.IsWhole) (a4 : Memref sig .tc .vmem S32x32 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc : cond0_0 i)
    (x0 : Vec F S1x128x8x32x32 .f32) (x1 : Vec F S1x128x8x32 .i32) (x2 : Vec F S32x32 .f32) :
    out0_A_4 c i a2 h2 a3 h3 a4 h4 a5 h5 a6 h6 a7 h7 hc x0 x1 x2 = acc4 i x0 x1 x2 zero := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S1x1) hz2, View.readCov_unit_zero (S := S1x1) _ hz2]
  unfold acc4
  simp only [View.readAt_eq_ld, h2.read_unread, h3.read_unread, h4.read_unread, h5.read_unread, h6.read_unread, h7.read_unread, View.ld_unit_zero (S := S1x128x8x32x32) hz5, View.ld_unit_zero (S := S1x128x8x32) hz4, View.ld_unit_zero (S := S32x32) hz2, View.ld_unit_zero (S := S1x1) hz2]
  rfl

theorem out_A_5 (c : Dev nD) (i : grid0.Coords) (a2 : Memref sig .tc .vmem S1x128x8x32x32 .f32) (h2 : a2.IsWhole) (a3 : Memref sig .tc .vmem S1x128x8x32 .i32) (h3 : a3.IsWhole) (a4 : Memref sig .tc .vmem S32x32 .f32) (h4 : a4.IsWhole) (a5 : Memref sig .tc .vmem S1x1 .f32) (h5 : a5.IsWhole) (a6 : Memref sig .tc .vmem S1x1 .f32) (h6 : a6.IsWhole) (a7 : Memref sig .tc .vmem S1x1 .f32) (h7 : a7.IsWhole) (hc : cond0_0 i)
    (x0 : Vec F S1x128x8x32x32 .f32) (x1 : Vec F S1x128x8x32 .i32) (x2 : Vec F S32x32 .f32) :
    out0_A_5 c i a2 h2 a3 h3 a4 h4 a5 h5 a6 h6 a7 h7 hc x0 x1 x2 = acc5 i x0 x1 x2 zero := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S1x1) hz2, View.readCov_unit_zero (S := S1x1) _ hz2]
  unfold acc5
  simp only [View.readAt_eq_ld, h2.read_unread, h3.read_unread, h4.read_unread, h5.read_unread, h6.read_unread, h7.read_unread, View.ld_unit_zero (S := S1x128x8x32x32) hz5, View.ld_unit_zero (S := S1x128x8x32) hz4, View.ld_unit_zero (S := S32x32) hz2, View.ld_unit_zero (S := S1x1) hz2]
  rfl

/-! ### The running totals -/

variable (m : (ℓ : Loc nD τ sig) → Buf (Elt F) ℓ)

/-- The loss accumulator after point `n`: from zero, one `acc3` per point. -/
def run3 (c : Dev nD) : (n : ℕ) → n < cfg0.N → Vec F S1x1 .f32
  | 0, h => acc3 (grid0.coords ⟨0, h⟩) (iblk m c 0 ⟨0, h⟩) (iblk m c 1 ⟨0, h⟩) (iblk m c 2 ⟨0, h⟩) zero
  | n + 1, h => acc3 (grid0.coords ⟨n + 1, h⟩) (iblk m c 0 ⟨n + 1, h⟩) (iblk m c 1 ⟨n + 1, h⟩) (iblk m c 2 ⟨n + 1, h⟩) (run3 c n (Nat.lt_of_succ_lt h))

/-- The per-label accumulator after point `n`. -/
def run4 (c : Dev nD) : (n : ℕ) → n < cfg0.N → Vec F S1x1 .f32
  | 0, h => acc4 (grid0.coords ⟨0, h⟩) (iblk m c 0 ⟨0, h⟩) (iblk m c 1 ⟨0, h⟩) (iblk m c 2 ⟨0, h⟩) zero
  | n + 1, h => acc4 (grid0.coords ⟨n + 1, h⟩) (iblk m c 0 ⟨n + 1, h⟩) (iblk m c 1 ⟨n + 1, h⟩) (iblk m c 2 ⟨n + 1, h⟩) (run4 c n (Nat.lt_of_succ_lt h))

/-- The all-labels accumulator after point `n`. -/
def run5 (c : Dev nD) : (n : ℕ) → n < cfg0.N → Vec F S1x1 .f32
  | 0, h => acc5 (grid0.coords ⟨0, h⟩) (iblk m c 0 ⟨0, h⟩) (iblk m c 1 ⟨0, h⟩) (iblk m c 2 ⟨0, h⟩) zero
  | n + 1, h => acc5 (grid0.coords ⟨n + 1, h⟩) (iblk m c 0 ⟨n + 1, h⟩) (iblk m c 1 ⟨n + 1, h⟩) (iblk m c 2 ⟨n + 1, h⟩) (run5 c n (Nat.lt_of_succ_lt h))

/-- What the three staging buffers hold after point `n` is the three running totals: by induction on the point. -/
theorem outsAt_eq (c : Dev nD) : ∀ (n : ℕ) (h : n < cfg0.N), outsAt0 m c n h = (run3 m c n h, run4 m c n h, run5 m c n h)
  | 0, h => by
    rw [outsAt0_A m c ⟨0, h⟩ rfl, out_A_3, out_A_4, out_A_5]
    rfl
  | n + 1, h => by
    have hN : cfg0.N = 128 := N_0
    have hB : ¬(⟨n + 1, h⟩ : Fin cfg0.N).val % 128 = 0 := by dsimp only; omega
    rw [outsAt0_B m c ⟨n + 1, h⟩ hB, out_B_3, out_B_4, out_B_5]
    have ih := outsAt_eq c n (Nat.lt_of_succ_lt h)
    show (acc3 _ _ _ _ (outsAt0 m c n _).1, acc4 _ _ _ _ (outsAt0 m c n _).2.1, acc5 _ _ _ _ (outsAt0 m c n _).2.2) = _
    rw [ih]
    rfl

end Cert.KernelIdeal.KValue

end
-- ==== Proof.KSums.lean ====
/-
  A point's partial totals as sums over the block's entries.

  The body totals a [128, 8, 32] array by summing its last axis, then the 8 columns, then the 128 rows (the
  last through a one-row view), and takes the one element left; a [128, 8] array likewise without the first
  step. Over the extended reals each of these sums is the sum over that axis's coordinates, so the total is
  the triple (double) sum over the coordinates.
-/
import proofs.«170084_j35639638622669_2_alg».proof.Proof.Gen.KernelIdeal.Frame
import Idealize.ShloMosaic.Lib.Pipeline.Value
import Idealize.ShloMosaic.Lib.Tactic
import Idealize.ShloMosaic.PureOps.Ideal.Laws
import Idealize.ShloMosaic.Lib.ValueIdx
set_option maxRecDepth 16384

noncomputable section
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable {F : FTy → Type} [FloatOps F]

/-- The body's total of a [128, 8] array: rows' sums, their sum through a one-row view, the one element. -/
def tot2 (v : FVec F S128x8 .f32) : F .f32 :=
  extractAt ![0, 0] (shapeCast S1x1 (multiReduction .add [1] S1 (shapeCast S1x128
    (multiReduction .add [1] S128 v 0x00000000#32 reduces_S128x8_S128 (.inl rfl) rfl) shapeCasts_S128_S1x128)
    0x00000000#32 reduces_S1x128_S1 (.inl rfl) rfl) shapeCasts_S1_S1x1) inpos_S1x1_p0_0

/-- The body's total of a [128, 8, 32] array: the last axis summed first. -/
def tot3 (v : FVec F S128x8x32 .f32) : F .f32 :=
  tot2 (multiReduction .add [2] S128x8 v 0x00000000#32 reduces_S128x8x32_S128x8 (.inl rfl) rfl)

theorem tot2_eq (v : FVec Ideal S128x8 .f32) : tot2 v = ∑ n : Fin 128, ∑ u : Fin 8, v (ix2 n u) := by
  unfold tot2 extractAt
  rw [shapeCast_addUnit_apply (n := 1) ![1]]
  refine (Ideal.multiReduction_add_single _ _ _ _ _ _).trans ?_
  refine Finset.sum_congr rfl fun n _ => ?_
  rw [shapeCast_addUnit_apply (n := 1) ![128]]
  refine (Ideal.multiReduction_add_single _ _ _ _ _ _).trans ?_
  refine Finset.sum_congr rfl fun u _ => ?_
  refine congrArg v (funext fun a => Fin.ext ?_)
  match a with
  | ⟨0, _⟩ => rfl
  | ⟨1, _⟩ => rfl

theorem tot3_eq (v : FVec Ideal S128x8x32 .f32) : tot3 v = ∑ n : Fin 128, ∑ u : Fin 8, ∑ k : Fin 32, v (ix3 n u k) := by
  unfold tot3
  rw [tot2_eq]
  refine Finset.sum_congr rfl fun n _ => Finset.sum_congr rfl fun u _ => ?_
  refine (Ideal.multiReduction_add_single _ _ _ _ _ _).trans ?_
  refine Finset.sum_congr rfl fun k _ => ?_
  refine congrArg v (funext fun a => Fin.ext ?_)
  match a with
  | ⟨0, _⟩ => rfl
  | ⟨1, _⟩ => rfl
  | ⟨2, _⟩ => rfl

end Cert.KernelIdeal.KValue

end
-- ==== Proof.KLayout.lean ====
/-
  The body's re-layouts read at an entry.

  The body drops the leading unit axis of its two big blocks, lays the [32, 32] identity pattern over every
  (row, column) pair of the block, and lays the [128, 8] pair mask along the 32 labels. Each of these reads
  one element of its operand: the block's entry (n, u, k, l) is the staged block's (0, n, u, k, l); the pattern
  laid over (n, u, k, l) is the pattern at (k, l); the mask laid over (n, u, k) is the mask at (n, u).
-/
import proofs.«170084_j35639638622669_2_alg».proof.Proof.Gen.KernelIdeal.Frame
import Idealize.ShloMosaic.Lib.Pipeline.Value
import Idealize.ShloMosaic.Lib.Tactic
import Idealize.ShloMosaic.Lib.ValueIdx
set_option maxRecDepth 16384

noncomputable section
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable {α : Type}

/-- The probabilities' block without its leading unit axis. -/
theorem cast5 (x : S1x128x8x32x32.Idx → α) (n : Fin 128) (u : Fin 8) (k l : Fin 32) :
    shapeCast S128x8x32x32 x shapeCasts_S1x128x8x32x32_S128x8x32x32 (ix4 n u k l) = x (ix5 (0 : Fin 1) n u k l) := by
  refine (shapeCast_dropUnit_apply (n := 4) ![128, 8, 32, 32] x _ _).trans ?_
  refine congrArg x (funext fun a => Fin.ext ?_)
  match a with | ⟨0, _⟩ => rfl | ⟨1, _⟩ => rfl | ⟨2, _⟩ => rfl | ⟨3, _⟩ => rfl | ⟨4, _⟩ => rfl

/-- The labels' block without its leading unit axis. -/
theorem cast4 (x : S1x128x8x32.Idx → α) (n : Fin 128) (u : Fin 8) (k : Fin 32) :
    shapeCast S128x8x32 x shapeCasts_S1x128x8x32_S128x8x32 (ix3 n u k) = x (ix4 (0 : Fin 1) n u k) := by
  refine (shapeCast_dropUnit_apply (n := 3) ![128, 8, 32] x _ _).trans ?_
  refine congrArg x (funext fun a => Fin.ext ?_)
  match a with | ⟨0, _⟩ => rfl | ⟨1, _⟩ => rfl | ⟨2, _⟩ => rfl | ⟨3, _⟩ => rfl

/-- The [32, 32] pattern laid over the block: at (n, u, k, l) it is the pattern at (k, l). -/
theorem pattern_at (x : S32x32.Idx → α) (n : Fin 128) (u : Fin 8) (k l : Fin 32) :
    broadcastTo S128x8x32x32 (shapeCast S1x1x32x32 (shapeCast S32x32 x shapeCasts_S32x32_S32x32) shapeCasts_S32x32_S1x1x32x32)
      broadcasts_S1x1x32x32_S128x8x32x32 (ix4 n u k l) = x (ix2 k l) := by
  refine (broadcastTo_apply _ _ _ (ix4 (0 : Fin 1) (0 : Fin 1) k l) (fun a => by match a with | ⟨0, _⟩ => rfl | ⟨1, _⟩ => rfl | ⟨2, _⟩ => rfl | ⟨3, _⟩ => rfl)).trans ?_
  refine (shapeCast_apply _ _ _ (ix2 k l) (by
    rw [Shape.rowMajor_val_two, Shape.rowMajor_val_four]
    show k.val * 32 + l.val = ((0 * 1 + 0) * 32 + k.val) * 32 + l.val
    omega)).trans ?_
  rw [shapeCast_self]

/-- The [128, 8] mask laid along the labels: at (n, u, k) it is the mask at (n, u). -/
theorem mask_at3 (x : S128x8.Idx → α) (n : Fin 128) (u : Fin 8) (k : Fin 32) :
    broadcastTo S128x8x32 (shapeCast S128x8x1 x shapeCasts_S128x8_S128x8x1) broadcasts_S128x8x1_S128x8x32 (ix3 n u k) = x (ix2 n u) := by
  refine (broadcastTo_apply _ _ _ (ix3 n u (0 : Fin 1)) (fun a => by match a with | ⟨0, _⟩ => rfl | ⟨1, _⟩ => rfl | ⟨2, _⟩ => rfl)).trans ?_
  refine shapeCast_apply _ _ _ (ix2 n u) (by
    rw [Shape.rowMajor_val_two, Shape.rowMajor_val_three]
    show n.val * 8 + u.val = (n.val * 8 + u.val) * 1 + 0
    omega)

/-- The mask given a trailing unit axis and taken back. -/
theorem mask_at2 (x : S128x8.Idx → α) :
    shapeCast S128x8 (shapeCast S128x8x1 x shapeCasts_S128x8_S128x8x1) shapeCasts_S128x8x1_S128x8 = x :=
  shapeCast_shapeCast x _ _

end Cert.KernelIdeal.KValue

end
-- ==== Proof.KEntries.lean ====
/-
  The body's terms at an entry of the block.

  At entry (n, u, k) of a point's block — row n, column u of the 8 columns the point holds, label k —
    the label as a number is the staged word read signed;
    the diagonal probability is the sum over l of the probabilities' row (n, u, k, ·) times the pattern's row k;
    the row maximum is the fold of max over that row from −∞;
    the cross-entropy term is 0 − (g·log d + (1 − g)·log(1 − d));
    the correctness term is g·s + (1 − g)·(1 − s), with s = 1 when d is the row maximum, else 0;
  and the pair mask at (n, u) is 1 when the row number differs from the column number 8·(second grid coordinate) + u.
-/
import proofs.«170084_j35639638622669_2_alg».proof.Proof.Gen.KernelIdeal.Frame
import Idealize.ShloMosaic.Lib.Pipeline.Value
import Idealize.ShloMosaic.Lib.Tactic
import Idealize.ShloMosaic.PureOps.Ideal.Laws
import Idealize.ShloMosaic.Lib.ValueIdx
import proofs.«170084_j35639638622669_2_alg».proof.Proof.KLayout
set_option maxRecDepth 16384

noncomputable section
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (x0 : Vec Ideal S1x128x8x32x32 .f32) (x1 : Vec Ideal S1x128x8x32 .i32) (x2 : Vec Ideal S32x32 .f32)
variable (n : Fin 128) (u : Fin 8) (k : Fin 32)

/-- The label at an entry, as a number. -/
theorem pay7_apply : k0_pay7 (F := Ideal) x1 (ix3 n u k) = (((x1 (ix4 (0 : Fin 1) n u k)).toInt : ℝ) : EReal) := by
  unfold k0_pay7
  show FloatOps.sitofp (F := Ideal) .f32 (shapeCast S128x8x32 x1 shapeCasts_S1x128x8x32_S128x8x32 (ix3 n u k)) = _
  rw [cast4]
  rfl

/-- The diagonal probability at an entry: the row times the pattern's row, summed. -/
theorem pay8_apply : k0_pay8 x0 x2 (ix3 n u k) = ∑ l : Fin 32, x0 (ix5 (0 : Fin 1) n u k l) * x2 (ix2 k l) := by
  unfold k0_pay8 k0_pay6
  refine (Ideal.multiReduction_add_single _ _ _ _ _ _).trans ?_
  refine Finset.sum_congr rfl fun (l : Fin 32) _ => ?_
  have e : reduces_S128x8x32x32_S128x8x32.lift (ix3 n u k) l = ix4 n u k l :=
    funext fun a => Fin.ext (by match a with | ⟨0, _⟩ => rfl | ⟨1, _⟩ => rfl | ⟨2, _⟩ => rfl | ⟨3, _⟩ => rfl)
  show shapeCast S128x8x32x32 x0 shapeCasts_S1x128x8x32x32_S128x8x32x32 (reduces_S128x8x32x32_S128x8x32.lift (ix3 n u k) l)
      * broadcastTo S128x8x32x32 (shapeCast S1x1x32x32 (shapeCast S32x32 x2 shapeCasts_S32x32_S32x32) shapeCasts_S32x32_S1x1x32x32)
          broadcasts_S1x1x32x32_S128x8x32x32 (reduces_S128x8x32x32_S128x8x32.lift (ix3 n u k) l) = _
  rw [e]
  exact congrArg₂ (· * ·) (cast5 x0 n u k l) (pattern_at x2 n u k l)

/-- The row maximum at an entry: the fold of max over the row, from the reduction's initial word. -/
theorem pay9_apply : k0_pay9 x0 (ix3 n u k)
    = (Finset.univ : Finset (Fin 32)).fold max (Ideal.ofBits .f32 0xFF800000#32) (fun l => x0 (ix5 (0 : Fin 1) n u k l)) := by
  unfold k0_pay9 k0_pay6
  refine (Ideal.multiReduction_maximumf_single _ _ _ _ _ _).trans ?_
  show Finset.fold max (Ideal.ofBits .f32 0xFF800000#32)
      (fun l : Fin 32 => shapeCast S128x8x32x32 x0 shapeCasts_S1x128x8x32x32_S128x8x32x32 (reduces_S128x8x32x32_S128x8x32.lift (ix3 n u k) l))
      (Finset.univ : Finset (Fin 32)) = _
  refine congrArg (fun f => Finset.fold max (Ideal.ofBits .f32 0xFF800000#32) f (Finset.univ : Finset (Fin 32))) (funext fun (l : Fin 32) => ?_)
  have e : reduces_S128x8x32x32_S128x8x32.lift (ix3 n u k) l = ix4 n u k l :=
    funext fun a => Fin.ext (by match a with | ⟨0, _⟩ => rfl | ⟨1, _⟩ => rfl | ⟨2, _⟩ => rfl | ⟨3, _⟩ => rfl)
  exact (congrArg (shapeCast S128x8x32x32 x0 shapeCasts_S1x128x8x32x32_S128x8x32x32) e).trans (cast5 x0 n u k l)

/-- The cross-entropy term at an entry. -/
theorem pay10_apply : k0_pay10 x0 x1 x2 (ix3 n u k)
    = Ideal.ofBits .f32 0x00000000#32 - (k0_pay7 (F := Ideal) x1 (ix3 n u k) * Ideal.log (k0_pay8 x0 x2 (ix3 n u k))
        + (Ideal.ofBits .f32 0x3F800000#32 - k0_pay7 (F := Ideal) x1 (ix3 n u k)) * Ideal.log (Ideal.ofBits .f32 0x3F800000#32 - k0_pay8 x0 x2 (ix3 n u k))) := rfl

/-- The correctness term at an entry, from the label `g`, the diagonal `d` and the row maximum `r` there. -/
theorem pay14_apply (v11 v15 v16 : FVec Ideal S128x8x32 .f32) (q : S128x8x32.Idx) : k0_pay14 v11 v15 v16 q
    = v11 q * Scalar.select (Ideal.cmp .oeq (v15 q) (v16 q)) (Ideal.ofBits .f32 0x3F800000#32) (Ideal.ofBits .f32 0x00000000#32)
      + (Ideal.ofBits .f32 0x3F800000#32 - v11 q) * (Ideal.ofBits .f32 0x3F800000#32 - Scalar.select (Ideal.cmp .oeq (v15 q) (v16 q)) (Ideal.ofBits .f32 0x3F800000#32) (Ideal.ofBits .f32 0x00000000#32)) := rfl

/-- The pair mask as a number at (n, u), from the mask bit. -/
theorem pay13_apply (v33 : IVec S128x8 1) (q : S128x8.Idx) :
    (select v33 (k0_pay12 (F := Ideal)) (broadcast S128x8 (Ideal.ofBits .f32 0x00000000#32 : Ideal .f32))) q
    = Scalar.select (v33 q) (Ideal.ofBits .f32 0x3F800000#32) (Ideal.ofBits .f32 0x00000000#32) := rfl

/-- The mask bit at (n, u): the row number against the column number of the point. -/
theorem pay11_apply (i : grid0.Coords) : k0_pay11 i (ix2 n u)
    = IntOp.cmpi .ne (BitVec.ofNat 32 n.val) (BitVec.ofNat 32 u.val + BitVec.ofNat 32 (i 1).val * 8#32) := by
  unfold k0_pay11
  dsimp only
  show IntOp.cmpi .ne (iota .tc S128x8 32 [0] iota_S128x8_d0_w32 (ix2 n u)) (iota .tc S128x8 32 [1] iota_S128x8_d1_w32 (ix2 n u) + _) = _
  rw [iota_single_apply, iota_single_apply]
  rfl

end Cert.KernelIdeal.KValue

end
-- ==== Proof.KBlocks.lean ====
/-
  The blocks a grid point is given.

  The 128 points run row-major over (batch entry, column block): point t is batch entry t / 16 and column
  block t % 16. Its probabilities' block is rows 0..127, columns 8·(t % 16) .. 8·(t % 16) + 7 of that batch
  entry (all labels, all row positions); its labels' block likewise; its third block is the whole [32, 32]
  pattern that the host lines before the region leave: 1 where the row number equals the column number, else 0.
-/
import proofs.«170084_j35639638622669_2_alg».proof.Proof.Gen.KernelIdeal.Frame
import Idealize.ShloMosaic.Lib.Pipeline.Value
import Idealize.ShloMosaic.Lib.Tactic
import Idealize.ShloMosaic.Lib.StableHlo.Run
import Idealize.ShloMosaic.Lib.ValueIdx
set_option maxRecDepth 16384

noncomputable section
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable {F : FTy → Type} [FloatOps F]
variable (m : (ℓ : Loc nD τ sig) → Buf (Elt F) ℓ)

/-- Point t's coordinates: row-major over (8, 16). -/
theorem coords_val : ∀ t : Fin cfg0.N, (grid0.coords t (0 : Fin 2)).val = t.val / 16 ∧ (grid0.coords t (1 : Fin 2)).val = t.val % 16 :=
  (by decide +kernel : ∀ t : Fin grid0.N, (grid0.coords t (0 : Fin 2)).val = t.val / 16 ∧ (grid0.coords t (1 : Fin 2)).val = t.val % 16)

/-- The probabilities' window's block index at point t. -/
theorem idx0 : ∀ t : Fin cfg0.N, win0_0.index t (0 : Fin 5) = t.val / 16 ∧ win0_0.index t (1 : Fin 5) = 0 ∧ win0_0.index t (2 : Fin 5) = t.val % 16
    ∧ win0_0.index t (3 : Fin 5) = 0 ∧ win0_0.index t (4 : Fin 5) = 0 :=
  (by decide +kernel : ∀ t : Fin grid0.N, win0_0.index t (0 : Fin 5) = t.val / 16 ∧ win0_0.index t (1 : Fin 5) = 0 ∧ win0_0.index t (2 : Fin 5) = t.val % 16
    ∧ win0_0.index t (3 : Fin 5) = 0 ∧ win0_0.index t (4 : Fin 5) = 0)

/-- The labels' window's block index at point t. -/
theorem idx1 : ∀ t : Fin cfg0.N, win0_1.index t (0 : Fin 4) = t.val / 16 ∧ win0_1.index t (1 : Fin 4) = 0 ∧ win0_1.index t (2 : Fin 4) = t.val % 16
    ∧ win0_1.index t (3 : Fin 4) = 0 :=
  (by decide +kernel : ∀ t : Fin grid0.N, win0_1.index t (0 : Fin 4) = t.val / 16 ∧ win0_1.index t (1 : Fin 4) = 0 ∧ win0_1.index t (2 : Fin 4) = t.val % 16
    ∧ win0_1.index t (3 : Fin 4) = 0)

/-- The pattern's window's block index: always the one block. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- An entry of point t's probabilities' block, in the array. -/
theorem iblk0_apply (c : Dev nD) (t : Fin cfg0.N) (n : Fin 128) (u : Fin 8) (k l : Fin 32) :
    (iblk m c 0 t : Vec F S1x128x8x32x32 .f32) (ix5 (0 : Fin 1) n u k l)
      = (V m c main_arg0 : S8x128x128x32x32.Idx → F .f32) (ix5 (⟨t.val / 16, by have := t.isLt; have e : cfg0.N = 128 := N_0; omega⟩ : Fin 8) n (⟨8 * (t.val % 16) + u.val, by have := u.isLt; omega⟩ : Fin 128) k l) := by
  obtain ⟨e0, e1, e2, e3, e4⟩ := idx0 t
  unfold iblk
  rw [View.read_apply]
  show (V m c main_arg0 : S8x128x128x32x32.Idx → F .f32) _ = (V m c main_arg0 : S8x128x128x32x32.Idx → F .f32) _
  congr 1
  funext a
  apply Fin.ext
  match a with
  | ⟨0, _⟩ => show win0_0.index t 0 * 1 + 1 * (0 : Fin 1).val = t.val / 16; rw [e0]; simp
  | ⟨1, _⟩ => show win0_0.index t 1 * 128 + 1 * n.val = n.val; rw [e1]; omega
  | ⟨2, _⟩ => show win0_0.index t 2 * 8 + 1 * u.val = 8 * (t.val % 16) + u.val; rw [e2]; omega
  | ⟨3, _⟩ => show win0_0.index t 3 * 32 + 1 * k.val = k.val; rw [e3]; omega
  | ⟨4, _⟩ => show win0_0.index t 4 * 32 + 1 * l.val = l.val; rw [e4]; omega

/-- An entry of point t's labels' block, in the array. -/
theorem iblk1_apply (c : Dev nD) (t : Fin cfg0.N) (n : Fin 128) (u : Fin 8) (k : Fin 32) :
    (iblk m c 1 t : Vec F S1x128x8x32 .i32) (ix4 (0 : Fin 1) n u k)
      = (V m c main_arg1 : S8x128x128x32.Idx → BitVec 32) (ix4 (⟨t.val / 16, by have := t.isLt; have e : cfg0.N = 128 := N_0; omega⟩ : Fin 8) n (⟨8 * (t.val % 16) + u.val, by have := u.isLt; omega⟩ : Fin 128) k) := by
  obtain ⟨e0, e1, e2, e3⟩ := idx1 t
  unfold iblk
  rw [View.read_apply]
  show (V m c main_arg1 : S8x128x128x32.Idx → BitVec 32) _ = (V m c main_arg1 : S8x128x128x32.Idx → BitVec 32) _
  congr 1
  funext a
  apply Fin.ext
  match a with
  | ⟨0, _⟩ => show win0_1.index t 0 * 1 + 1 * (0 : Fin 1).val = t.val / 16; rw [e0]; simp
  | ⟨1, _⟩ => show win0_1.index t 1 * 128 + 1 * n.val = n.val; rw [e1]; omega
  | ⟨2, _⟩ => show win0_1.index t 2 * 8 + 1 * u.val = 8 * (t.val % 16) + u.val; rw [e2]; omega
  | ⟨3, _⟩ => show win0_1.index t 3 * 32 + 1 * k.val = k.val; rw [e3]; omega

/-- An entry of the pattern's block is the pattern's. -/
theorem iblk2_apply (c : Dev nD) (t : Fin cfg0.N) (k l : Fin 32) :
    (iblk m c 2 t : Vec F S32x32 .f32) (ix2 k l) = (V m c main_v5 : S32x32.Idx → F .f32) (ix2 k l) := by
  obtain ⟨e0, e1⟩ := idx2 t
  unfold iblk
  rw [View.read_apply]
  show (V m c main_v5 : S32x32.Idx → F .f32) _ = (V m c main_v5 : S32x32.Idx → F .f32) _
  congr 1
  funext a
  apply Fin.ext
  match a with
  | ⟨0, _⟩ => show win0_2.index t 0 * 32 + 1 * k.val = k.val; rw [e0]; omega
  | ⟨1, _⟩ => show win0_2.index t 1 * 32 + 1 * l.val = l.val; rw [e1]; omega

/-- The pattern the host lines before the region leave: the number of the bit "row number (plus zero) = column number". -/
theorem V_pattern (c : Dev nD) : (V m c main_v5 : S32x32.Idx → F .f32)
    = uitofp .f32 (cmpi .eq (addi (iotaInDim S32x32 32 0) (broadcastInDim S32x32 ![] bcast_S_S32x32 (constantI S_ 32 0#32))) (iotaInDim S32x32 32 1)) := by
  show StableHlo.after hostOps0 (fun b => m (c, b)) (Proc.devRef .tc main_v5) = _
  after_results

end Cert.KernelIdeal.KValue

end
-- ==== Proof.KPoint.lean ====
/-
  What one grid point adds to the three accumulators, as sums of the per-entry terms.

  Point t is batch entry b = t / 16 and column block t % 16; its entry (n, u, k) is the array's entry
  (b, n, j, k) with j = 8·(t % 16) + u. There
    the diagonal probability the body forms, the sum over l of X[b,n,j,k,l] times the pattern [k = l], is
      X[b,n,j,k,k]: every other summand is a product with 0;
    the row maximum, the label, and the pair mask [n ≠ j] are the per-entry terms' own;
  so the point adds to the loss accumulator the sum over (n, u, k) of the masked cross-entropy term of entry
  (b, n, j, k), to the per-label accumulator the sum of the masked correctness terms, and to the all-labels
  accumulator the sum over (n, u) of the masked minimum over k of the correctness terms.
-/
import proofs.«170084_j35639638622669_2_alg».proof.Proof.Gen.KernelIdeal.Frame
import Idealize.ShloMosaic.Lib.Pipeline.Value
import Idealize.ShloMosaic.Lib.Tactic
import Idealize.ShloMosaic.PureOps.Ideal.Laws
import Idealize.ShloMosaic.Lib.ValueIdx
import Idealize.ShloMosaic.Lib.IdealHost
import proofs.«170084_j35639638622669_2_alg».proof.Proof.Terms
import proofs.«170084_j35639638622669_2_alg».proof.Proof.KPieces
import proofs.«170084_j35639638622669_2_alg».proof.Proof.KSums
import proofs.«170084_j35639638622669_2_alg».proof.Proof.KEntries
import proofs.«170084_j35639638622669_2_alg».proof.Proof.KBlocks
set_option maxRecDepth 16384

noncomputable section
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

/-! ### Two facts about words below 2^32 -/

/-- The pattern's entry (k, l) as a number: 1 when k = l, else 0. -/
theorem pattern_val (k l : Fin 32) :
    (((IntOp.cmpi .eq (BitVec.ofNat 32 k.val + 0#32) (BitVec.ofNat 32 l.val)).toNat : ℝ) : EReal) = if k = l then 1 else 0 := by
  rw [BitVec.add_zero]
  show (((BitVec.ofBool (BitVec.ofNat 32 k.val == BitVec.ofNat 32 l.val)).toNat : ℝ) : EReal) = _
  by_cases h : k = l
  · subst h; rw [if_pos rfl, beq_self_eq_true]
    have e1 : (BitVec.ofBool true).toNat = 1 := rfl
    rw [e1]; norm_num
  · rw [if_neg h]
    have hne : BitVec.ofNat 32 k.val ≠ BitVec.ofNat 32 l.val := by
      intro he
      have := congrArg BitVec.toNat he
      rw [BitVec.toNat_ofNat, BitVec.toNat_ofNat, Nat.mod_eq_of_lt (by omega), Nat.mod_eq_of_lt (by omega)] at this
      exact h (Fin.ext this)
    rw [beq_eq_false_iff_ne.mpr hne]
    have e0 : (BitVec.ofBool false).toNat = 0 := rfl
    rw [e0]; norm_num

/-- The mask bit of row n against column 8·jt + u, as a number, is the pair mask. -/
theorem mask_val (n : Fin 128) (u : Fin 8) (jt : ℕ) (hjt : jt < 16) :
    Scalar.select (IntOp.cmpi .ne (BitVec.ofNat 32 n.val) (BitVec.ofNat 32 u.val + BitVec.ofNat 32 jt * 8#32)) (1 : EReal) 0
      = Fsmre.off n ⟨8 * jt + u.val, by omega⟩ := by
  unfold Fsmre.off
  show Scalar.select (BitVec.ofBool (BitVec.ofNat 32 n.val != BitVec.ofNat 32 u.val + BitVec.ofNat 32 jt * 8#32)) (1 : EReal) 0 = _
  have hw : BitVec.ofNat 32 u.val + BitVec.ofNat 32 jt * 8#32 = BitVec.ofNat 32 (8 * jt + u.val) := by
    apply BitVec.eq_of_toNat_eq
    simp only [BitVec.toNat_add, BitVec.toNat_mul, BitVec.toNat_ofNat]
    omega
  rw [hw]
  by_cases h : n.val = 8 * jt + u.val
  · rw [if_neg (by simpa using h), h, bne_self_eq_false]; rfl
  · rw [if_pos (by simpa using h)]
    have hne : BitVec.ofNat 32 n.val ≠ BitVec.ofNat 32 (8 * jt + u.val) := by
      intro he
      have := congrArg BitVec.toNat he
      rw [BitVec.toNat_ofNat, BitVec.toNat_ofNat, Nat.mod_eq_of_lt (by omega), Nat.mod_eq_of_lt (by omega)] at this
      exact h this
    rw [bne_iff_ne.mpr hne]; rfl

/-- A row times the pattern's row k, summed, is the row's entry k. -/
theorem row_times_pattern (r : Fin 32 → EReal) (k : Fin 32) :
    (∑ l : Fin 32, r l * (((IntOp.cmpi .eq (BitVec.ofNat 32 k.val + 0#32) (BitVec.ofNat 32 l.val)).toNat : ℝ) : EReal)) = r k := by
  rw [Finset.sum_eq_single k]
  · rw [pattern_val, if_pos rfl, mul_one]
  · intro l _ hl
    rw [pattern_val, if_neg (fun e => hl e.symm), mul_zero]
  · intro h; exact absurd (Finset.mem_univ k) h

/-! ### The point's blocks against the arrays -/

variable (m : (ℓ : Loc nD τ sig) → Buf (Elt Ideal) ℓ) (c : Dev nD) (t : Fin cfg0.N)

/-- The probabilities and the labels the program was launched with, on core `c`. -/
abbrev Xof : Fsmre.SX.Idx → EReal := m ((c.tc : Thread nD τ).loc main_arg0)
abbrev Tof : Fsmre.ST.Idx → BitVec 32 := m ((c.tc : Thread nD τ).loc main_arg1)

/-- Point t's batch entry and, for a block column u, its array column. -/
abbrev bOf : Fin 8 := (⟨t.val / 16, by have := t.isLt; have e : cfg0.N = 128 := N_0; omega⟩ : Fin 8)
abbrev jOf (u : Fin 8) : Fin 128 := (⟨8 * (t.val % 16) + u.val, by have := u.isLt; omega⟩ : Fin 128)

variable (n : Fin 128) (u : Fin 8) (k : Fin 32)

theorem label_at : k0_pay7 (F := Ideal) (iblk m c 1 t) (ix3 n u k) = Fsmre.lab (Tof m c) (bOf t) n (jOf t u) k := by
  rw [pay7_apply, iblk1_apply, V_main_arg1]
  rfl

theorem diag_at : k0_pay8 (iblk m c 0 t) (iblk m c 2 t) (ix3 n u k) = Fsmre.diag (Xof m c) (bOf t) n (jOf t u) k := by
  rw [pay8_apply]
  refine (Finset.sum_congr rfl fun l _ => ?_).trans (row_times_pattern (fun l => Xof m c (ix5 (bOf t) n (jOf t u) k l)) k)
  rw [iblk0_apply, iblk2_apply, V_main_arg0, V_pattern]
  rfl

theorem rowmax_at : k0_pay9 (iblk m c 0 t) (ix3 n u k) = Fsmre.rowmax (Xof m c) (bOf t) n (jOf t u) k := by
  rw [pay9_apply]
  unfold Fsmre.rowmax
  have hb : Ideal.ofBits .f32 0xFF800000#32 = (⊥ : EReal) := by simp [Ideal.ofBits, Ideal.ieee]
  rw [hb]
  refine congrArg (fun f => Finset.fold max (⊥ : EReal) f (Finset.univ : Finset (Fin 32))) (funext fun l => ?_)
  rw [iblk0_apply, V_main_arg0]

theorem mask_at : Scalar.select (k0_pay11 (grid0.coords t) (ix2 n u)) (Ideal.ofBits .f32 0x3F800000#32) (Ideal.ofBits .f32 0x00000000#32)
    = Fsmre.off n (jOf t u) := by
  rw [pay11_apply, (coords_val t).2, Ideal.ofBits_one_f32, Ideal.ofBits_zero_f32]
  exact mask_val n u (t.val % 16) (Nat.mod_lt _ (by norm_num))

end Cert.KernelIdeal.KValue

end
-- ==== Proof.KIncrGen.lean ====
/-
  The entries a point totals, for any three blocks.

  For any blocks x0 (probabilities), x1 (labels), x2 (pattern) and any grid coordinates, an entry of the
  arrays the body totals is the per-entry term of the label, the diagonal probability, the row maximum and the
  mask read at that entry. Stated here over the blocks as variables; a later module puts a point's blocks in.
-/
import proofs.«170084_j35639638622669_2_alg».proof.Proof.Gen.KernelIdeal.Frame
import Idealize.ShloMosaic.Lib.Pipeline.Value
import Idealize.ShloMosaic.Lib.Tactic
import Idealize.ShloMosaic.PureOps.Ideal.Laws
import Idealize.ShloMosaic.Lib.ValueIdx
import Idealize.ShloMosaic.Lib.IdealHost
import proofs.«170084_j35639638622669_2_alg».proof.Proof.KPieces
import proofs.«170084_j35639638622669_2_alg».proof.Proof.KSums
import proofs.«170084_j35639638622669_2_alg».proof.Proof.KEntries
set_option maxRecDepth 16384

noncomputable section
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

/-- A `vector.multi_reduction <minimumf>` over one axis at the extended reals: the fold of min over that axis's
    coordinates from the accumulator's value. -/
theorem minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

variable (i : grid0.Coords) (x0 : Vec Ideal S1x128x8x32x32 .f32) (x1 : Vec Ideal S1x128x8x32 .i32) (x2 : Vec Ideal S32x32 .f32)

variable (n : Fin 128) (u : Fin 8) (k : Fin 32)

/-- The mask laid along the labels, at an entry, from the mask bit. -/
theorem mask3_entry (mk : EReal)
    (hm : Scalar.select (k0_pay11 i (ix2 n u)) (Ideal.ofBits .f32 0x3F800000#32) (Ideal.ofBits .f32 0x00000000#32) = mk) :
    broadcastTo S128x8x32 (k0_pay13 (k0_pay11 i) (Ideal.ofBits .f32 0x00000000#32 : Ideal .f32) (k0_pay12 (F := Ideal))) broadcasts_S128x8x1_S128x8x32 (ix3 n u k) = mk := by
  unfold k0_pay13
  exact (mask_at3 _ n u k).trans ((pay13_apply _ _).trans hm)

/-- The mask taken back to [128, 8], at a pair. -/
theorem mask2_entry (mk : EReal)
    (hm : Scalar.select (k0_pay11 i (ix2 n u)) (Ideal.ofBits .f32 0x3F800000#32) (Ideal.ofBits .f32 0x00000000#32) = mk) :
    shapeCast S128x8 (k0_pay13 (k0_pay11 i) (Ideal.ofBits .f32 0x00000000#32 : Ideal .f32) (k0_pay12 (F := Ideal))) shapeCasts_S128x8x1_S128x8 (ix2 n u) = mk := by
  unfold k0_pay13
  exact (congrFun (mask_at2 _) (ix2 n u)).trans ((pay13_apply _ _).trans hm)

/-- A masked cross-entropy entry, from the label g, the diagonal d and the mask mk at the entry. -/
theorem loss_entry (g d mk : EReal) (hg : k0_pay7 (F := Ideal) x1 (ix3 n u k) = g) (hd : k0_pay8 x0 x2 (ix3 n u k) = d)
    (hm : Scalar.select (k0_pay11 i (ix2 n u)) (Ideal.ofBits .f32 0x3F800000#32) (Ideal.ofBits .f32 0x00000000#32) = mk) :
    mulf (k0_pay10 x0 x1 x2) (broadcastTo S128x8x32 (k0_pay13 (k0_pay11 i) (Ideal.ofBits .f32 0x00000000#32 : Ideal .f32) (k0_pay12 (F := Ideal))) broadcasts_S128x8x1_S128x8x32) (ix3 n u k)
      = (0 - (g * Ideal.log d + (1 - g) * Ideal.log (1 - d))) * mk := by
  rw [mulf_apply, mask3_entry i n u k mk hm, pay10_apply, hg, hd, Ideal.ofBits_one_f32, Ideal.ofBits_zero_f32]

/-- A correctness entry, unmasked, from the label g, the diagonal d and the row maximum r at the entry. -/
theorem cor_entry (g d r : EReal) (hg : k0_pay7 (F := Ideal) x1 (ix3 n u k) = g) (hd : k0_pay8 x0 x2 (ix3 n u k) = d)
    (hr : k0_pay9 x0 (ix3 n u k) = r) :
    (k0_pay14 (k0_pay7 (F := Ideal) x1) (k0_pay8 x0 x2) (k0_pay9 x0)) (ix3 n u k)
      = g * Scalar.select (Ideal.cmp .oeq d r) (1 : EReal) 0 + (1 - g) * (1 - Scalar.select (Ideal.cmp .oeq d r) (1 : EReal) 0) := by
  rw [pay14_apply, hg, hd, hr, Ideal.ofBits_one_f32, Ideal.ofBits_zero_f32]

/-- A masked correctness entry. -/
theorem single_entry (e mk : EReal) (he : (k0_pay14 (k0_pay7 (F := Ideal) x1) (k0_pay8 x0 x2) (k0_pay9 x0)) (ix3 n u k) = e)
    (hm : Scalar.select (k0_pay11 i (ix2 n u)) (Ideal.ofBits .f32 0x3F800000#32) (Ideal.ofBits .f32 0x00000000#32) = mk) :
    mulf (k0_pay14 (k0_pay7 (F := Ideal) x1) (k0_pay8 x0 x2) (k0_pay9 x0)) (broadcastTo S128x8x32 (k0_pay13 (k0_pay11 i) (Ideal.ofBits .f32 0x00000000#32 : Ideal .f32) (k0_pay12 (F := Ideal))) broadcasts_S128x8x1_S128x8x32) (ix3 n u k) = e * mk := by
  rw [mulf_apply, mask3_entry i n u k mk hm, he]

/-- A masked all-labels entry: the fold of min from +∞ over the labels of the correctness entries. -/
theorem multi_entry (f : Fin 32 → EReal) (mk : EReal) (hf : ∀ k : Fin 32, (k0_pay14 (k0_pay7 (F := Ideal) x1) (k0_pay8 x0 x2) (k0_pay9 x0)) (ix3 n u k) = f k)
    (hm : Scalar.select (k0_pay11 i (ix2 n u)) (Ideal.ofBits .f32 0x3F800000#32) (Ideal.ofBits .f32 0x00000000#32) = mk) :
    mulf (multiReduction .minimumf [2] S128x8 (k0_pay14 (k0_pay7 (F := Ideal) x1) (k0_pay8 x0 x2) (k0_pay9 x0)) 0x7F800000#32 reduces_S128x8x32_S128x8 (.inl rfl) rfl)
        (shapeCast S128x8 (k0_pay13 (k0_pay11 i) (Ideal.ofBits .f32 0x00000000#32 : Ideal .f32) (k0_pay12 (F := Ideal))) shapeCasts_S128x8x1_S128x8) (ix2 n u)
      = (Finset.univ : Finset (Fin 32)).fold min ⊤ f * mk := by
  rw [mulf_apply, mask2_entry i n u mk hm]
  refine congrArg (· * mk) ?_
  refine (minimumf_single _ _ _ _ _ _).trans ?_
  have ht : Ideal.ofBits .f32 0x7F800000#32 = (⊤ : EReal) := by simp [Ideal.ofBits, Ideal.ieee]
  show Finset.fold min (Ideal.ofBits .f32 0x7F800000#32) _ (Finset.univ : Finset (Fin 32)) = _
  rw [ht]
  refine congrArg (fun f => Finset.fold min (⊤ : EReal) f (Finset.univ : Finset (Fin 32))) (funext fun (k : Fin 32) => ?_)
  have e : reduces_S128x8x32_S128x8.lift (ix2 n u) k = ix3 n u k :=
    funext fun a => Fin.ext (by match a with | ⟨0, _⟩ => rfl | ⟨1, _⟩ => rfl | ⟨2, _⟩ => rfl)
  show (k0_pay14 (k0_pay7 (F := Ideal) x1) (k0_pay8 x0 x2) (k0_pay9 x0)) (reduces_S128x8x32_S128x8.lift (ix2 n u) k) = _
  rw [e]
  exact hf k

end Cert.KernelIdeal.KValue

end
-- ==== Proof.KSplit.lean ====
/-
  The accumulators' updates, for any three blocks.

  For any blocks x0 (probabilities), x1 (labels), x2 (pattern) and any grid coordinates, the body's update of an
  accumulator is the old value plus the body's total of a [128, 8, 32] (or [128, 8]) array of masked entries.
-/
import proofs.«170084_j35639638622669_2_alg».proof.Proof.Gen.KernelIdeal.Frame
import Idealize.ShloMosaic.Lib.Pipeline.Value
import Idealize.ShloMosaic.Lib.Tactic
import Idealize.ShloMosaic.PureOps.Ideal.Laws
import Idealize.ShloMosaic.Lib.ValueIdx
import Idealize.ShloMosaic.Lib.IdealHost
import proofs.«170084_j35639638622669_2_alg».proof.Proof.KPieces
import proofs.«170084_j35639638622669_2_alg».proof.Proof.KSums
import proofs.«170084_j35639638622669_2_alg».proof.Proof.KEntries
set_option maxRecDepth 16384

noncomputable section
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (i : grid0.Coords) (x0 : Vec Ideal S1x128x8x32x32 .f32) (x1 : Vec Ideal S1x128x8x32 .i32) (x2 : Vec Ideal S32x32 .f32)
variable (xo : Vec Ideal S1x1 .f32) (y : S1x1.Idx)

/-- The loss accumulator's update: the old value plus the total of the masked cross-entropy entries. -/
theorem acc3_split : acc3 i x0 x1 x2 xo y
    = xo y + tot3 (mulf (k0_pay10 x0 x1 x2) (broadcastTo S128x8x32 (k0_pay13 (k0_pay11 i) (Ideal.ofBits .f32 0x00000000#32 : Ideal .f32) (k0_pay12 (F := Ideal))) broadcasts_S128x8x1_S128x8x32)) := by
  unfold acc3 k0_pay17
  dsimp only
  rw [addf_apply, broadcast_apply, shapeCast_self]
  unfold tot3 tot2
  rfl

/-- The per-label accumulator's update. -/
theorem acc4_split : acc4 i x0 x1 x2 xo y
    = xo y + tot3 (mulf (k0_pay14 (k0_pay7 (F := Ideal) x1) (k0_pay8 x0 x2) (k0_pay9 x0)) (broadcastTo S128x8x32 (k0_pay13 (k0_pay11 i) (Ideal.ofBits .f32 0x00000000#32 : Ideal .f32) (k0_pay12 (F := Ideal))) broadcasts_S128x8x1_S128x8x32)) := by
  unfold acc4 k0_pay1 k0_pay15
  dsimp only
  rw [addf_apply, broadcast_apply, shapeCast_self]
  unfold tot3 tot2
  rfl

/-- The all-labels accumulator's update. -/
theorem acc5_split : acc5 i x0 x1 x2 xo y
    = xo y + tot2 (mulf (multiReduction .minimumf [2] S128x8 (k0_pay14 (k0_pay7 (F := Ideal) x1) (k0_pay8 x0 x2) (k0_pay9 x0)) 0x7F800000#32 reduces_S128x8x32_S128x8 (.inl rfl) rfl)
        (shapeCast S128x8 (k0_pay13 (k0_pay11 i) (Ideal.ofBits .f32 0x00000000#32 : Ideal .f32) (k0_pay12 (F := Ideal))) shapeCasts_S128x8x1_S128x8)) := by
  unfold acc5 k0_pay2 k0_pay16
  dsimp only
  rw [addf_apply, broadcast_apply, shapeCast_self]
  unfold tot2
  rfl

end Cert.KernelIdeal.KValue

end
-- ==== Proof.KIncr.lean ====
/-
  A grid point's three increments.

  With the point's blocks put in: what point t adds to the loss accumulator is the sum over its rows n, its 8
  columns u and the labels k of the masked cross-entropy term of the array's entry (t / 16, n, 8·(t % 16) + u, k);
  to the per-label accumulator the same sum of the masked correctness terms; to the all-labels accumulator
  the sum over (n, u) of the masked minimum over the labels of the correctness terms.
-/
import proofs.«170084_j35639638622669_2_alg».proof.Proof.Gen.KernelIdeal.Frame
import Idealize.ShloMosaic.Lib.Pipeline.Value
import Idealize.ShloMosaic.Lib.Tactic
import Idealize.ShloMosaic.PureOps.Ideal.Laws
import Idealize.ShloMosaic.Lib.ValueIdx
import proofs.«170084_j35639638622669_2_alg».proof.Proof.KPoint
import proofs.«170084_j35639638622669_2_alg».proof.Proof.KIncrGen
import proofs.«170084_j35639638622669_2_alg».proof.Proof.KSplit
set_option maxRecDepth 16384

noncomputable section
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (c : Dev nD) (t : Fin cfg0.N)

/-- The correctness term of an entry of point t's block, unmasked. -/
theorem cor_at (n : Fin 128) (u : Fin 8) (k : Fin 32) :
    k0_pay14 (k0_pay7 (F := Ideal) (iblk m c 1 t)) (k0_pay8 (iblk m c 0 t) (iblk m c 2 t)) (k0_pay9 (iblk m c 0 t)) (ix3 n u k)
      = Fsmre.corK (Xof m c) (Tof m c) (bOf t) n (jOf t u) k :=
  cor_entry (iblk m c 0 t) (iblk m c 1 t) (iblk m c 2 t) n u k
    (Fsmre.lab (Tof m c) (bOf t) n (jOf t u) k) (Fsmre.diag (Xof m c) (bOf t) n (jOf t u) k) (Fsmre.rowmax (Xof m c) (bOf t) n (jOf t u) k)
    (label_at m c t n u k) (diag_at m c t n u k) (rowmax_at m c t n u k)

/-- What point t adds to the loss accumulator. -/
theorem acc3_at (xo : Vec Ideal S1x1 .f32) (y : S1x1.Idx) :
    acc3 (grid0.coords t) (iblk m c 0 t) (iblk m c 1 t) (iblk m c 2 t) xo y
      = xo y + ∑ n : Fin 128, ∑ u : Fin 8, ∑ k : Fin 32, Fsmre.lossK (Xof m c) (Tof m c) (bOf t) n (jOf t u) k := by
  refine (acc3_split (grid0.coords t) (iblk m c 0 t) (iblk m c 1 t) (iblk m c 2 t) xo y).trans ?_
  refine congrArg (xo y + ·) ?_
  refine (tot3_eq _).trans ?_
  refine Finset.sum_congr rfl fun n _ => Finset.sum_congr rfl fun u _ => Finset.sum_congr rfl fun k _ => ?_
  exact loss_entry (grid0.coords t) (iblk m c 0 t) (iblk m c 1 t) (iblk m c 2 t) n u k
    (Fsmre.lab (Tof m c) (bOf t) n (jOf t u) k) (Fsmre.diag (Xof m c) (bOf t) n (jOf t u) k) (Fsmre.off n (jOf t u))
    (label_at m c t n u k) (diag_at m c t n u k) (mask_at t n u)

/-- What point t adds to the per-label accumulator. -/
theorem acc4_at (xo : Vec Ideal S1x1 .f32) (y : S1x1.Idx) :
    acc4 (grid0.coords t) (iblk m c 0 t) (iblk m c 1 t) (iblk m c 2 t) xo y
      = xo y + ∑ n : Fin 128, ∑ u : Fin 8, ∑ k : Fin 32, Fsmre.singleK (Xof m c) (Tof m c) (bOf t) n (jOf t u) k := by
  refine (acc4_split (grid0.coords t) (iblk m c 0 t) (iblk m c 1 t) (iblk m c 2 t) xo y).trans ?_
  refine congrArg (xo y + ·) ?_
  refine (tot3_eq _).trans ?_
  refine Finset.sum_congr rfl fun n _ => Finset.sum_congr rfl fun u _ => Finset.sum_congr rfl fun k _ => ?_
  exact single_entry (grid0.coords t) (iblk m c 0 t) (iblk m c 1 t) (iblk m c 2 t) n u k
    (Fsmre.corK (Xof m c) (Tof m c) (bOf t) n (jOf t u) k) (Fsmre.off n (jOf t u))
    (cor_at m c t n u k) (mask_at t n u)

/-- What point t adds to the all-labels accumulator. -/
theorem acc5_at (xo : Vec Ideal S1x1 .f32) (y : S1x1.Idx) :
    acc5 (grid0.coords t) (iblk m c 0 t) (iblk m c 1 t) (iblk m c 2 t) xo y
      = xo y + ∑ n : Fin 128, ∑ u : Fin 8, Fsmre.multiK (Xof m c) (Tof m c) (bOf t) n (jOf t u) := by
  refine (acc5_split (grid0.coords t) (iblk m c 0 t) (iblk m c 1 t) (iblk m c 2 t) xo y).trans ?_
  refine congrArg (xo y + ·) ?_
  refine (tot2_eq _).trans ?_
  refine Finset.sum_congr rfl fun n _ => Finset.sum_congr rfl fun u _ => ?_
  exact multi_entry (grid0.coords t) (iblk m c 0 t) (iblk m c 1 t) (iblk m c 2 t) n u
    (fun k => Fsmre.corK (Xof m c) (Tof m c) (bOf t) n (jOf t u) k) (Fsmre.off n (jOf t u))
    (fun k => cor_at m c t n u k) (mask_at t n u)

end Cert.KernelIdeal.KValue

end
-- ==== Proof.KTotals.lean ====
/-
  The three accumulators after the last point.

  Each accumulator starts at zero and receives one increment per point, so after point n it holds the sum of
  the increments of points 0..n (addition on the extended reals is associative and 0 is neutral: no finiteness
  is needed). After the last of the 128 points the sum runs over all points; a point's increment is itself a
  sum over the entries the point holds, and the points' entries partition the array's, so the total is the
  sum of the per-entry term over every index of the array (over every pair, for the third).
-/
import proofs.«170084_j35639638622669_2_alg».proof.Proof.Gen.KernelIdeal.Frame
import Idealize.ShloMosaic.Lib.Pipeline.Value
import Idealize.ShloMosaic.Lib.Tactic
import Idealize.ShloMosaic.PureOps.Ideal.Laws
import Idealize.ShloMosaic.Lib.ValueIdx
import proofs.«170084_j35639638622669_2_alg».proof.Proof.Regroup
import proofs.«170084_j35639638622669_2_alg».proof.Proof.KIncr
set_option maxRecDepth 16384

noncomputable section
open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (c : Dev nD)

/-- Point t's increment of the loss accumulator. -/
def inc3 (t : Fin cfg0.N) : EReal :=
  ∑ n : Fin 128, ∑ u : Fin 8, ∑ k : Fin 32, Fsmre.lossK (Xof m c) (Tof m c) (bOf t) n (jOf t u) k
/-- Point t's increment of the per-label accumulator. -/
def inc4 (t : Fin cfg0.N) : EReal :=
  ∑ n : Fin 128, ∑ u : Fin 8, ∑ k : Fin 32, Fsmre.singleK (Xof m c) (Tof m c) (bOf t) n (jOf t u) k
/-- Point t's increment of the all-labels accumulator. -/
def inc5 (t : Fin cfg0.N) : EReal :=
  ∑ n : Fin 128, ∑ u : Fin 8, Fsmre.multiK (Xof m c) (Tof m c) (bOf t) n (jOf t u)

/-- The loss accumulator after point n: the sum of the increments of points 0..n. -/
theorem run3_eq : ∀ (n : ℕ) (h : n < cfg0.N) (y : S1x1.Idx),
    run3 m c n h y = ∑ i : Fin (n + 1), inc3 m c ⟨i.val, by have := i.isLt; omega⟩
  | 0, h, y => by
    show acc3 _ _ _ _ zero y = _
    rw [acc3_at, Fin.sum_univ_one]
    show Ideal.ofBits .f32 0x00000000#32 + _ = _
    rw [Ideal.ofBits_zero_f32, zero_add]
    rfl
  | n + 1, h, y => by
    show acc3 _ _ _ _ (run3 m c n (Nat.lt_of_succ_lt h)) y = _
    rw [acc3_at, run3_eq n (Nat.lt_of_succ_lt h) y]
    symm
    rw [Fin.sum_univ_castSucc]
    rfl

/-- The per-label accumulator after point n: the sum of the increments of points 0..n. -/
theorem run4_eq : ∀ (n : ℕ) (h : n < cfg0.N) (y : S1x1.Idx),
    run4 m c n h y = ∑ i : Fin (n + 1), inc4 m c ⟨i.val, by have := i.isLt; omega⟩
  | 0, h, y => by
    show acc4 _ _ _ _ zero y = _
    rw [acc4_at, Fin.sum_univ_one]
    show Ideal.ofBits .f32 0x00000000#32 + _ = _
    rw [Ideal.ofBits_zero_f32, zero_add]
    rfl
  | n + 1, h, y => by
    show acc4 _ _ _ _ (run4 m c n (Nat.lt_of_succ_lt h)) y = _
    rw [acc4_at, run4_eq n (Nat.lt_of_succ_lt h) y]
    symm
    rw [Fin.sum_univ_castSucc]
    rfl

/-- The all-labels accumulator after point n: the sum of the increments of points 0..n. -/
theorem run5_eq : ∀ (n : ℕ) (h : n < cfg0.N) (y : S1x1.Idx),
    run5 m c n h y = ∑ i : Fin (n + 1), inc5 m c ⟨i.val, by have := i.isLt; omega⟩
  | 0, h, y => by
    show acc5 _ _ _ _ zero y = _
    rw [acc5_at, Fin.sum_univ_one]
    show Ideal.ofBits .f32 0x00000000#32 + _ = _
    rw [Ideal.ofBits_zero_f32, zero_add]
    rfl
  | n + 1, h, y => by
    show acc5 _ _ _ _ (run5 m c n (Nat.lt_of_succ_lt h)) y = _
    rw [acc5_at, run5_eq n (Nat.lt_of_succ_lt h) y]
    symm
    rw [Fin.sum_univ_castSucc]
    rfl

/-- The last point. -/
theorem last_lt : 127 < cfg0.N := by rw [show cfg0.N = 128 from N_0]; decide

/-- The loss accumulator after the last point: the masked cross-entropy term summed over every entry. -/
theorem total3 (y : S1x1.Idx) : run3 m c 127 last_lt y
    = ∑ q : Fsmre.ST.Idx, Fsmre.lossK (Xof m c) (Tof m c) (q 0) (q 1) (q 2) (q 3) :=
  (run3_eq m c 127 last_lt y).trans (Fsmre.sum_steps4 (Fsmre.lossK (Xof m c) (Tof m c)))

/-- The per-label accumulator after the last point. -/
theorem total4 (y : S1x1.Idx) : run4 m c 127 last_lt y
    = ∑ q : Fsmre.ST.Idx, Fsmre.singleK (Xof m c) (Tof m c) (q 0) (q 1) (q 2) (q 3) :=
  (run4_eq m c 127 last_lt y).trans (Fsmre.sum_steps4 (Fsmre.singleK (Xof m c) (Tof m c)))

/-- The all-labels accumulator after the last point: the masked minimum summed over every pair. -/
theorem total5 (y : S1x1.Idx) : run5 m c 127 last_lt y
    = ∑ r : (⟨4, ![8, 128, 128, 1]⟩ : Shape).Idx, Fsmre.multiK (Xof m c) (Tof m c) (r 0) (r 1) (r 2) :=
  (run5_eq m c 127 last_lt y).trans (Fsmre.sum_steps3 (Fsmre.multiK (Xof m c) (Tof m c)))

end Cert.KernelIdeal.KValue

end
-- ==== Proof.KArrays.lean ====
/-
  The three result arrays of the region.

  Each accumulator's window has one block, the whole one-element array, and is written back once, after the
  last point. So after the region each of the three arrays holds its accumulator's running total after the
  last point.
-/
import proofs.«170084_j35639638622669_2_alg».proof.Proof.Gen.KernelIdeal.Frame
import Idealize.ShloMosaic.Lib.Pipeline.Value
import Idealize.ShloMosaic.Lib.Tactic
import proofs.«170084_j35639638622669_2_alg».proof.Proof.KPieces
set_option maxRecDepth 16384

noncomputable section
open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (c : Dev nD)

/-- The last point. -/
theorem last_lt' : 127 < cfg0.N := by rw [show cfg0.N = 128 from N_0]; decide
abbrev tLast : Fin cfg0.N := ⟨127, last_lt'⟩

/-- The three running totals after the last point, as contents of the three arrays. -/
abbrev result3 : Buf (Elt F) ((c : Thread nD τ).loc main_v6_0) := run3 m c 127 last_lt'
abbrev result4 : Buf (Elt F) ((c : Thread nD τ).loc main_v6_1) := run4 m c 127 last_lt'
abbrev result5 : Buf (Elt F) ((c : Thread nD τ).loc main_v6_2) := run5 m c 127 last_lt'

/-- Window 3's one write-back, after the last point, writes the running total: block (0, 0) of the one-element array is the array. -/
theorem flushed_eq3 (t : Fin cfg0.N) (hf : (cfg0.win 3).flush t = true) :
    (dats m 0 c).flushed 3 t = ((cfg0.win 3).blk t).view.read (Elt F) (result3 m c) := by
  have hN : cfg0.N = 128 := N_0
  have h3 : t.val = 127 := by have := (flush0_3 t).mp hf; have := t.isLt; omega
  obtain rfl : t = tLast := Fin.ext h3
  show (cfg0.win 3).cut (grid0.coords tLast) ((dats m 0 c).after 3 tLast) = _
  rw [after0_3, outsAt_eq]
  have hz' : (fun a => win0_3.index tLast a * main_v6_0.ty.shape.size a) = fun _ => 0 := funext fun a => by fin_cases a <;> decide +kernel
  exact (Memref.read_access_unit_zero (Elt F) main_v6_0 hz' (fun a => by rw [congrFun hz' a]; simp) (result3 m c)).symm

/-- So the array ends holding the running total after the last point. -/
theorem final3 : (dats m 0 c).arrAt 3 cfg0.N = result3 m c :=
  (dats m 0 c).arrAt_eq_of_cover 3 (result3 m c) (flushed_eq3 m c) fun i =>
    ⟨tLast, (flush0_3 tLast).mpr rfl, by
      show i ∈ ((View.whole main_v6_0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- Window 4's one write-back, after the last point, writes the running total: block (0, 0) of the one-element array is the array. -/
theorem flushed_eq4 (t : Fin cfg0.N) (hf : (cfg0.win 4).flush t = true) :
    (dats m 0 c).flushed 4 t = ((cfg0.win 4).blk t).view.read (Elt F) (result4 m c) := by
  have hN : cfg0.N = 128 := N_0
  have h3 : t.val = 127 := by have := (flush0_4 t).mp hf; have := t.isLt; omega
  obtain rfl : t = tLast := Fin.ext h3
  show (cfg0.win 4).cut (grid0.coords tLast) ((dats m 0 c).after 4 tLast) = _
  rw [after0_4, outsAt_eq]
  have hz' : (fun a => win0_4.index tLast a * main_v6_1.ty.shape.size a) = fun _ => 0 := funext fun a => by fin_cases a <;> decide +kernel
  exact (Memref.read_access_unit_zero (Elt F) main_v6_1 hz' (fun a => by rw [congrFun hz' a]; simp) (result4 m c)).symm

/-- So the array ends holding the running total after the last point. -/
theorem final4 : (dats m 0 c).arrAt 4 cfg0.N = result4 m c :=
  (dats m 0 c).arrAt_eq_of_cover 4 (result4 m c) (flushed_eq4 m c) fun i =>
    ⟨tLast, (flush0_4 tLast).mpr rfl, by
      show i ∈ ((View.whole main_v6_1).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- Window 5's one write-back, after the last point, writes the running total: block (0, 0) of the one-element array is the array. -/
theorem flushed_eq5 (t : Fin cfg0.N) (hf : (cfg0.win 5).flush t = true) :
    (dats m 0 c).flushed 5 t = ((cfg0.win 5).blk t).view.read (Elt F) (result5 m c) := by
  have hN : cfg0.N = 128 := N_0
  have h3 : t.val = 127 := by have := (flush0_5 t).mp hf; have := t.isLt; omega
  obtain rfl : t = tLast := Fin.ext h3
  show (cfg0.win 5).cut (grid0.coords tLast) ((dats m 0 c).after 5 tLast) = _
  rw [after0_5, outsAt_eq]
  have hz' : (fun a => win0_5.index tLast a * main_v6_2.ty.shape.size a) = fun _ => 0 := funext fun a => by fin_cases a <;> decide +kernel
  exact (Memref.read_access_unit_zero (Elt F) main_v6_2 hz' (fun a => by rw [congrFun hz' a]; simp) (result5 m c)).symm

/-- So the array ends holding the running total after the last point. -/
theorem final5 : (dats m 0 c).arrAt 5 cfg0.N = result5 m c :=
  (dats m 0 c).arrAt_eq_of_cover 5 (result5 m c) (flushed_eq5 m c) fun i =>
    ⟨tLast, (flush0_5 tLast).mpr rfl, by
      show i ∈ ((View.whole main_v6_2).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

end Cert.KernelIdeal.KValue

end
-- ==== Proof.KRun.lean ====
/-
  The first program's run, with its three results named.

  After the region the host divides the loss array's one element by 520192 and then by 8, the per-label
  array's by 4161536 and the all-labels array's by 130048 (the three constants as the program spells them).
  So every execution ends with the three results at those quotients of the three running totals after the
  last point, and the two arguments unchanged.
-/
import proofs.«170084_j35639638622669_2_alg».proof.Proof.Gen.KernelIdeal.Frame
import Idealize.ShloMosaic.Lib.Pipeline.Value
import Idealize.ShloMosaic.Lib.Tactic
import Idealize.ShloMosaic.Lib.StableHlo.Run
import proofs.«170084_j35639638622669_2_alg».proof.Proof.KArrays
set_option maxRecDepth 16384

noncomputable section
open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

/-- The loss from its total: the one element as a scalar, divided by the two constants. -/
def tail9 (a : Vec F S1x1 .f32) : FVec F S_ .f32 :=
  Host.divf (Host.divf (shapeCast S_ a shapeCasts_S1x1_S_) (constant S_ .f32 0x48FE0000#32)) (constant S_ .f32 0x41000000#32)
/-- The per-label accuracy from its total. -/
def tail11 (a : Vec F S1x1 .f32) : FVec F S_ .f32 :=
  Host.divf (shapeCast S_ a shapeCasts_S1x1_S_) (constant S_ .f32 0x4A7E0000#32)
/-- The all-labels accuracy from its total. -/
def tail13 (a : Vec F S1x1 .f32) : FVec F S_ .f32 :=
  Host.divf (shapeCast S_ a shapeCasts_S1x1_S_) (constant S_ .f32 0x47FE0000#32)

variable (m : (ℓ : Loc nD τ sig) → Buf (Elt F) ℓ) (ρ : Dev nD → PrngReg) (c : Dev nD)

/-- tail9 after the host lines that follow the region. -/
theorem tail9_eq : Pipeline.afterTail₀ cfgs (dats m) 0 (V0 m) [hostOps1] c main_v9 = tail9 (result3 m c) := by
  have e : Pipeline.withArrays (cfgs 0).spec c (V0 m c) (fun w => (dats m 0 c).arrAt w (cfgs 0).N) (Proc.devRef .tc main_v6_0) = result3 m c :=
    (Pipeline.withArrays_arr spec0 launch0.win.arr_inj c _ _ 3).trans (final3 m c)
  unfold Pipeline.afterTail₀
  show StableHlo.after hostOps1 _ (Proc.devRef .tc main_v9) = _
  after_results
  rw [e]
  rfl

theorem mem_main_v9 : main_v9 ∈ Pipeline.restRefs sig (cfgs 0).spec :=
  Pipeline.mem_restRefs_of main_v9 rfl (fun w => by fin_cases w <;> decide)

/-- tail11 after the host lines that follow the region. -/
theorem tail11_eq : Pipeline.afterTail₀ cfgs (dats m) 0 (V0 m) [hostOps1] c main_v11 = tail11 (result4 m c) := by
  have e : Pipeline.withArrays (cfgs 0).spec c (V0 m c) (fun w => (dats m 0 c).arrAt w (cfgs 0).N) (Proc.devRef .tc main_v6_1) = result4 m c :=
    (Pipeline.withArrays_arr spec0 launch0.win.arr_inj c _ _ 4).trans (final4 m c)
  unfold Pipeline.afterTail₀
  show StableHlo.after hostOps1 _ (Proc.devRef .tc main_v11) = _
  after_results
  rw [e]
  rfl

theorem mem_main_v11 : main_v11 ∈ Pipeline.restRefs sig (cfgs 0).spec :=
  Pipeline.mem_restRefs_of main_v11 rfl (fun w => by fin_cases w <;> decide)

/-- tail13 after the host lines that follow the region. -/
theorem tail13_eq : Pipeline.afterTail₀ cfgs (dats m) 0 (V0 m) [hostOps1] c main_v13 = tail13 (result5 m c) := by
  have e : Pipeline.withArrays (cfgs 0).spec c (V0 m c) (fun w => (dats m 0 c).arrAt w (cfgs 0).N) (Proc.devRef .tc main_v6_2) = result5 m c :=
    (Pipeline.withArrays_arr spec0 launch0.win.arr_inj c _ _ 5).trans (final5 m c)
  unfold Pipeline.afterTail₀
  show StableHlo.after hostOps1 _ (Proc.devRef .tc main_v13) = _
  after_results
  rw [e]
  rfl

theorem mem_main_v13 : main_v13 ∈ Pipeline.restRefs sig (cfgs 0).spec :=
  Pipeline.mem_restRefs_of main_v13 rfl (fun w => by fin_cases w <;> decide)

/-- The run, read: the three results at the quotients of the three totals, the arguments unchanged. -/
theorem run : θ_run defs (onTc (τ := τ) (main (F := F))) ⟨m, fun _ => 0, ρ⟩ fun r => ∀ c : Dev nD,
      r.2.mem ((c.tc : Thread nD τ).loc main_v9) = tail9 (result3 m c)
      ∧ r.2.mem ((c.tc : Thread nD τ).loc main_v11) = tail11 (result4 m c)
      ∧ r.2.mem ((c.tc : Thread nD τ).loc main_v13) = tail13 (result5 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 mem_main_v9).trans (tail9_eq m c),
     ((h c).2 main_v11 mem_main_v11).trans (tail11_eq m c),
     ((h c).2 main_v13 mem_main_v13).trans (tail13_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.KValue

end
-- ==== Proof.Bridge.lean ====
/-
  The two programs compute the same three numbers.

  Each result is a quotient, by constants the two programs spell with the same words, of a total. The first
  program's totals are, after its last grid point, the sums over every entry (pair) of the masked terms in its
  arrangement; the second's are the sums, from zero, of the terms in its arrangement. Entry by entry the two
  arrangements agree for real probabilities and labels in {0, 1} — which is what the precondition gives — so the
  totals, and with them the three results, are equal.
-/
import proofs.«170084_j35639638622669_2_alg».proof.Defs
import proofs.«170084_j35639638622669_2_alg».proof.Proof.Gen.Kernel.Frame
import proofs.«170084_j35639638622669_2_alg».proof.Proof.TermsEq
import proofs.«170084_j35639638622669_2_alg».proof.Proof.PreFacts
import proofs.«170084_j35639638622669_2_alg».proof.Proof.RefTotals
import proofs.«170084_j35639638622669_2_alg».proof.Proof.KTotals
import proofs.«170084_j35639638622669_2_alg».proof.Proof.KRun

set_option maxRecDepth 16384

noncomputable section

open Idealize.ShloMosaic Idealize.ShloMosaic.TcCoe Idealize.SL.Sem

namespace Cert.Proof.Bridge

/-- The rank-0 shape of the three results. -/
abbrev S0 : Shape := ⟨0, ![]⟩

variable (X : Fsmre.SX.Idx → EReal) (T : Fsmre.ST.Idx → BitVec 32)

/-- The loss: the total of the masked cross-entropy terms, divided by the two constants. -/
def out0 : S0.Idx → EReal :=
  Host.divf (F := Ideal) (φ := .f32) (Host.divf (F := Ideal) (φ := .f32) (fun _ => 0 + ∑ q : Fsmre.ST.Idx, Fsmre.lossR X T (q 0) (q 1) (q 2) (q 3))
    (constant (F := Ideal) S0 .f32 0x48FE0000#32)) (constant (F := Ideal) S0 .f32 0x41000000#32)
/-- The per-label accuracy: the total of the masked correctness terms, divided by its constant. -/
def out1 : S0.Idx → EReal :=
  Host.divf (F := Ideal) (φ := .f32) (fun _ => 0 + ∑ q : Fsmre.ST.Idx, Fsmre.singleR X T (q 0) (q 1) (q 2) (q 3)) (constant (F := Ideal) S0 .f32 0x4A7E0000#32)
/-- The all-labels accuracy: the total of the masked all-labels terms, divided by its constant. -/
def out2 : S0.Idx → EReal :=
  Host.divf (F := Ideal) (φ := .f32) (fun _ => 0 + ∑ r : (⟨4, ![8, 128, 128, 1]⟩ : Shape).Idx, Fsmre.multiR X T (r 0) (r 1) (r 2)) (constant (F := Ideal) S0 .f32 0x47FE0000#32)

/-! ### The second program's results -/

open Cert.ReferenceIdeal in
theorem ref0 : ReadP.val_main_v30 (F := Ideal) X T = out0 X T := by
  unfold ReadP.val_main_v30 ReadP.val_main_v29
  rw [RefValue.loss_total]
  rfl

open Cert.ReferenceIdeal in
theorem ref1 : ReadP.val_main_v43 (F := Ideal) X T = out1 X T := by
  unfold ReadP.val_main_v43
  rw [RefValue.single_total]
  rfl

open Cert.ReferenceIdeal in
theorem ref2 : ReadP.val_main_v50 (F := Ideal) X T = out2 X T := by
  unfold ReadP.val_main_v50
  rw [RefValue.multi_total]
  rfl

/-! ### The first program's results -/

open Cert.KernelIdeal Cert.KernelIdeal.KValue in
theorem ker0 (m : (ℓ : Loc nD τ sig) → Buf (Elt Ideal) ℓ) (c : Dev nD)
    (hX : ∀ i : Fsmre.SX.Idx, ∃ r : ℝ, Xof m c i = (r : EReal)) (hT : ∀ q : Fsmre.ST.Idx, Tof m c q = 0#32 ∨ Tof m c q = 1#32) :
    tail9 (result3 m c) = out0 (Xof m c) (Tof m c) := by
  have e : (result3 m c : S1x1.Idx → EReal) = fun _ => ∑ q : Fsmre.ST.Idx, Fsmre.lossR (Xof m c) (Tof m c) (q 0) (q 1) (q 2) (q 3) :=
    funext fun y => (total3 m c y).trans (Finset.sum_congr rfl fun q _ => Fsmre.lossK_eq_lossR (Xof m c) (Tof m c) hX hT (q 0) (q 1) (q 2) (q 3))
  unfold tail9 out0
  rw [e]
  simp only [zero_add]
  rfl

open Cert.KernelIdeal Cert.KernelIdeal.KValue in
theorem ker1 (m : (ℓ : Loc nD τ sig) → Buf (Elt Ideal) ℓ) (c : Dev nD)
    (hT : ∀ q : Fsmre.ST.Idx, Tof m c q = 0#32 ∨ Tof m c q = 1#32) :
    tail11 (result4 m c) = out1 (Xof m c) (Tof m c) := by
  have e : (result4 m c : S1x1.Idx → EReal) = fun _ => ∑ q : Fsmre.ST.Idx, Fsmre.singleR (Xof m c) (Tof m c) (q 0) (q 1) (q 2) (q 3) :=
    funext fun y => (total4 m c y).trans (Finset.sum_congr rfl fun q _ => Fsmre.singleK_eq_singleR (Xof m c) (Tof m c) hT (q 0) (q 1) (q 2) (q 3))
  unfold tail11 out1
  rw [e]
  simp only [zero_add]
  rfl

open Cert.KernelIdeal Cert.KernelIdeal.KValue in
theorem ker2 (m : (ℓ : Loc nD τ sig) → Buf (Elt Ideal) ℓ) (c : Dev nD)
    (hT : ∀ q : Fsmre.ST.Idx, Tof m c q = 0#32 ∨ Tof m c q = 1#32) :
    tail13 (result5 m c) = out2 (Xof m c) (Tof m c) := by
  have e : (result5 m c : S1x1.Idx → EReal) = fun _ => ∑ r : (⟨4, ![8, 128, 128, 1]⟩ : Shape).Idx, Fsmre.multiR (Xof m c) (Tof m c) (r 0) (r 1) (r 2) :=
    funext fun y => (total5 m c y).trans (Finset.sum_congr rfl fun r _ => Fsmre.multiK_eq_multiR (Xof m c) (Tof m c) hT (r 0) (r 1) (r 2))
  unfold tail13 out2
  rw [e]
  simp only [zero_add]
  rfl

end Cert.Proof.Bridge

end
-- ==== Proof.lean ====
/-
  The certificate: the Pallas kernel that streams the probabilities and labels once and keeps three running
  totals (a masked binary cross-entropy, a masked per-label correctness count, a masked all-labels correctness
  count) computes, over the extended reals, the same three numbers as the reference that forms the three
  totals at once — for finite probabilities and labels in {0, 1}.

  The three frames: the two kernel programs' are the generated frames; the reference has no kernel, and its
  frame is its run with the results dropped. The idealization rewrote nothing. The equality of the results:
  the kernel's run ends with each result at a quotient of an accumulator's running total after the last grid
  point; each running total is the sum over every entry of the kernel's per-entry term (the accumulators only
  add, and addition on the extended reals is associative and commutative, so no finiteness is needed to
  regroup); the reference's run ends with each result at the same quotient of the sum of its per-entry term;
  and entry by entry the two terms agree: with the label g in {0, 1} and p real, g·log p + (1 − g)·log(1 − p)
  is log p or log(1 − p), as is log(p^g·(1 − p)^(1 − g)), and g·s + (1 − g)·(1 − s) for s in {0, 1} is s or
  1 − s, the number of the bit the reference selects; the minimum of such numbers over the labels is the number
  of the conjunction of the bits.
-/
import proofs.«170084_j35639638622669_2_alg».proof.Defs
import proofs.«170084_j35639638622669_2_alg».proof.Proof.Gen.Kernel
import proofs.«170084_j35639638622669_2_alg».proof.Proof.Gen.Kernel.Skeleton
import proofs.«170084_j35639638622669_2_alg».proof.Proof.Gen.Kernel.Launch
import proofs.«170084_j35639638622669_2_alg».proof.Proof.Gen.Kernel.Points
import proofs.«170084_j35639638622669_2_alg».proof.Proof.Gen.Kernel.Frame
import proofs.«170084_j35639638622669_2_alg».proof.Proof.Gen.KernelIdeal
import proofs.«170084_j35639638622669_2_alg».proof.Proof.Gen.KernelIdeal.Skeleton
import proofs.«170084_j35639638622669_2_alg».proof.Proof.Gen.KernelIdeal.Launch
import proofs.«170084_j35639638622669_2_alg».proof.Proof.Gen.KernelIdeal.Points
import proofs.«170084_j35639638622669_2_alg».proof.Proof.Gen.KernelIdeal.Frame
import proofs.«170084_j35639638622669_2_alg».proof.Proof.Gen.ReferenceIdeal
import proofs.«170084_j35639638622669_2_alg».proof.Proof.Gen.Pre_finite_inputs
import proofs.«170084_j35639638622669_2_alg».proof.Proof.RefRunP
import proofs.«170084_j35639638622669_2_alg».proof.Proof.RefReadP
import proofs.«170084_j35639638622669_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.ValueP.run (F := Ideal) m ρ)

/-- The two idealized programs, from memories that agree on the arguments, end with the same three results:
    each at the common function (`Bridge.out0`, `out1`, `out2`) of the two argument arrays. -/
theorem algebraic : Cert.algebraic_KernelIdeal_ReferenceIdeal := by
  intro m ρ m' ρ' hpre hagree
  have hf := fun c : Dev Cert.KernelIdeal.nD =>
    Fsmre.Pre.pre_facts (Cert.KernelIdeal.KValue.Xof m c) (Cert.KernelIdeal.KValue.Tof m c) (hpre c)
  refine ⟨fun c => Bridge.out0 (Cert.KernelIdeal.KValue.Xof m c) (Cert.KernelIdeal.KValue.Tof m c),
    fun c => Bridge.out1 (Cert.KernelIdeal.KValue.Xof m c) (Cert.KernelIdeal.KValue.Tof m c),
    fun c => Bridge.out2 (Cert.KernelIdeal.KValue.Xof m c) (Cert.KernelIdeal.KValue.Tof m c), ?_, ?_⟩
  · exact (θ_run Cert.KernelIdeal.defs _ _).mono (fun _ h c =>
      ⟨(h c).1.trans (Bridge.ker0 m c (hf c).1 (hf c).2),
       (h c).2.1.trans (Bridge.ker1 m c (hf c).2),
       (h c).2.2.1.trans (Bridge.ker2 m c (hf c).2),
       (h c).2.2.2.1, (h c).2.2.2.2⟩) (Cert.KernelIdeal.KValue.run (F := Ideal) m ρ)
  · refine (θ_run Cert.ReferenceIdeal.defs _ _).mono (fun _ h c => ⟨?_, ?_, ?_, (h c).2.2.2.1, (h c).2.2.2.2⟩)
      (Cert.ReferenceIdeal.ValueP.run (F := Ideal) m' ρ')
    · refine (h c).1.trans ((Cert.ReferenceIdeal.ReadP.val_main_v30_eq _ _).trans ((Bridge.ref0 _ _).trans ?_))
      rw [(hagree c).1, (hagree c).2]
    · refine (h c).2.1.trans ((Cert.ReferenceIdeal.ReadP.val_main_v43_eq _ _).trans ((Bridge.ref1 _ _).trans ?_))
      rw [(hagree c).1, (hagree c).2]
    · refine (h c).2.2.1.trans ((Cert.ReferenceIdeal.ReadP.val_main_v50_eq _ _).trans ((Bridge.ref2 _ _).trans ?_))
      rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
